-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S64x1024 : Shape := ⟨2, ![64, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_

variable [Facts]

def fn_part1 {F : FTy → Type} [FloatOps F] (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  main_v18

def fn {F : FTy → Type} [FloatOps F] (main_arg0 : FVec F S8x2048x1024 .f32) (main_arg1 : FVec F S64x1024 .f32) (main_arg2 : FVec F S64x1024 .f32) (main_arg3 : FVec F S64x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_v13 main_v16
-- ==== Kernel.lean ====
abbrev S8x2048x1024 : Shape := ⟨3, ![8, 2048, 1024]⟩
abbrev S64x1024 : Shape := ⟨2, ![64, 1024]⟩
abbrev S8x2048x64 : Shape := ⟨3, ![8, 2048, 64]⟩
abbrev S1x2048x1024 : Shape := ⟨3, ![1, 2048, 1024]⟩
abbrev S1x512x1024 : Shape := ⟨3, ![1, 512, 1024]⟩
abbrev S1x2048x64 : Shape := ⟨3, ![1, 2048, 64]⟩
abbrev S2048x64 : Shape := ⟨2, ![2048, 64]⟩
abbrev S2048x1024 : Shape := ⟨2, ![2048, 1024]⟩
abbrev S512x1024 : Shape := ⟨2, ![512, 1024]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩
abbrev S1x8x1x2048x1x64 : Shape := ⟨6, ![1, 8, 1, 2048, 1, 64]⟩
abbrev S1x8x1x2048x16x64 : Shape := ⟨6, ![1, 8, 1, 2048, 16, 64]⟩

abbrev nBuf : Space → Nat
  | .hbm => 8
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S8x2048x64, .f32⟩
  | .hbm, ⟨5, _⟩ => ⟨S1x8x1x2048x1x64, .f32⟩
  | .hbm, ⟨6, _⟩ => ⟨S1x8x1x2048x16x64, .f32⟩
  | .hbm, ⟨7, _⟩ => ⟨S8x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x512x1024, .f32⟩
  | .local _ .vmem, ⟨3, _⟩ => ⟨S1x512x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S1x2048x64, .f32⟩
  | .local _ .vmem, ⟨8, _⟩ => ⟨S1x2048x64, .f32⟩
  | .local _ .vmem, ⟨9, _⟩ => ⟨S2048x64, .f32⟩
  | .local _ .vmem, ⟨10, _⟩ => ⟨S2048x64, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_19 : BitVec 32 := 0#32
  let v37 : BitVec 1 := Scalar.cmpi .ne v36 c0_i32_19
  v37

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x2048_S512 : S512x2048.Reduces [1] S512
  shapeCasts_S512_S512x1 : S512.ShapeCasts S512x1
  broadcasts_S512x1_S512x2048 : S512x1.Broadcasts S512x2048
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  shapeCasts_S8x2048x64_S1x8x1x2048x1x64 : S8x2048x64.ShapeCasts S1x8x1x2048x1x64
  bcast_S1x8x1x2048x1x64_S1x8x1x2048x16x64_0_1_2_3_4_5 : S1x8x1x2048x1x64.BroadcastsInDim S1x8x1x2048x16x64 (![0, 1, 2, 3, 4, 5] : Fin 6 → Fin S1x8x1x2048x16x64.rank)
  shapeCasts_S1x8x1x2048x16x64_S8x2048x1024 : S1x8x1x2048x16x64.ShapeCasts S8x2048x1024
  dot_S2048x1024_S64x1024_S2048x64_1_1_0_0_n_n_wf : DotDims.WF S2048x1024 S64x1024 S2048x64 [1] [1] [0] [0] [] []
  dot_S512x1024_S64x1024_S512x64_1_1_0_0_n_n_wf : DotDims.WF S512x1024 S64x1024 S512x64 [1] [1] [0] [0] [] []
  dot_S512x64_S2048x64_S512x2048_1_1_0_0_n_n_wf : DotDims.WF S512x64 S2048x64 S512x2048 [1] [1] [0] [0] [] []
  dot_S512x2048_S512x64_S2048x64_0_0_1_1_n_n_wf : DotDims.WF S512x2048 S512x64 S2048x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x2048x1024.size a
  hwx0_1 : ∀ i : grid0.Coords, EltTy.bits .f32 = 32 ∨ (Rect.block (s := S8x2048x1024) S1x512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x1024.size a
  hwx0_2 : ∀ i : grid0.Coords, EltTy.bits .f32 = 32 ∨ (Rect.block (s := S64x1024) S64x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x1024.size a
  hwx0_3 : ∀ i : grid0.Coords, EltTy.bits .f32 = 32 ∨ (Rect.block (s := S64x1024) S64x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1024.size a ≤ S64x1024.size a
  hwx0_4 : ∀ i : grid0.Coords, EltTy.bits .f32 = 32 ∨ (Rect.block (s := S64x1024) S64x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x64.size a ≤ S8x2048x64.size a
  hwx0_5 : ∀ i : grid0.Coords, EltTy.bits .f32 = 32 ∨ (Rect.block (s := S8x2048x64) S1x2048x64.size (cc0_transform_5 i) (hinb0_5 i)).WholeWords (EltTy.packing .f32)

variable [Facts₀]

def dot_S2048x1024_S64x1024_S2048x64_1_1_0_0_n_n : DotDims S2048x1024 S64x1024 S2048x64 where
  lhsContracting := [1]
  rhsContracting := [1]
  lhsNonContracting := [0]
  rhsNonContracting := [0]
  lhsBatch := []
  rhsBatch := []
  wf := dot_S2048x1024_S64x1024_S2048x64_1_1_0_0_n_n_wf
def dot_S512x1024_S64x1024_S512x64_1_1_0_0_n_n : DotDims S512x1024 S64x1024 S512x64 where
  lhsContracting := [1]
  rhsContracting := [1]
  lhsNonContracting := [0]
  rhsNonContracting := [0]
  lhsBatch := []
  rhsBatch := []
  wf := dot_S512x1024_S64x1024_S512x64_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S512x64_S2048x64_0_0_1_1_n_n : DotDims S512x2048 S512x64 S2048x64 where
  lhsContracting := [0]
  rhsContracting := [0]
  lhsNonContracting := [1]
  rhsNonContracting := [1]
  lhsBatch := []
  rhsBatch := []
  wf := dot_S512x2048_S512x64_S2048x64_0_0_1_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x2048x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S64x1024 : Shape := ⟨2, ![64, 1024]⟩
abbrev S8x2048x64 : Shape := ⟨3, ![8, 2048, 64]⟩
abbrev S8x2048x2048 : Shape := ⟨3, ![8, 2048, 2048]⟩
abbrev S_ : Shape := ⟨0, ![]⟩
abbrev S8x2048 : Shape := ⟨2, ![8, 2048]⟩
abbrev S8x1x2048 : Shape := ⟨3, ![8, 1, 2048]⟩
abbrev S1x8x1x2048x1x64 : Shape := ⟨6, ![1, 8, 1, 2048, 1, 64]⟩
abbrev S1x8x1x2048x16x64 : Shape := ⟨6, ![1, 8, 1, 2048, 16, 64]⟩

abbrev nBuf : Space → Nat
  | .hbm => 26
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S8x2048x64, .f32⟩
  | .hbm, ⟨5, _⟩ => ⟨S8x2048x64, .f32⟩
  | .hbm, ⟨6, _⟩ => ⟨S8x2048x64, .f32⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x1x2048, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048, .f32⟩
  | .hbm, ⟨19, _⟩ => ⟨S8x1x2048, .f32⟩
  | .hbm, ⟨20, _⟩ => ⟨S8x2048x2048, .f32⟩
  | .hbm, ⟨21, _⟩ => ⟨S8x2048x2048, .f32⟩
  | .hbm, ⟨22, _⟩ => ⟨S8x2048x64, .f32⟩
  | .hbm, ⟨23, _⟩ => ⟨S1x8x1x2048x1x64, .f32⟩
  | .hbm, ⟨24, _⟩ => ⟨S1x8x1x2048x16x64, .f32⟩
  | .hbm, ⟨25, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  shapeCasts_S8x2048x64_S1x8x1x2048x1x64 : S8x2048x64.ShapeCasts S1x8x1x2048x1x64
  bcast_S1x8x1x2048x1x64_S1x8x1x2048x16x64_0_1_2_3_4_5 : S1x8x1x2048x1x64.BroadcastsInDim S1x8x1x2048x16x64 (![0, 1, 2, 3, 4, 5] : Fin 6 → Fin S1x8x1x2048x16x64.rank)
  shapeCasts_S1x8x1x2048x16x64_S8x2048x1024 : S1x8x1x2048x16x64.ShapeCasts S8x2048x1024
  dot_S8x2048x1024_S64x1024_S8x2048x64_2_1_01_0_n_n_wf : DotDims.WF S8x2048x1024 S64x1024 S8x2048x64 [2] [1] [0, 1] [0] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x1024_S64x1024_S8x2048x64_2_1_01_0_n_n : DotDims S8x2048x1024 S64x1024 S8x2048x64 where
  lhsContracting := [2]
  rhsContracting := [1]
  lhsNonContracting := [0, 1]
  rhsNonContracting := [0]
  lhsBatch := []
  rhsBatch := []
  wf := dot_S8x2048x1024_S64x1024_S8x2048x64_2_1_01_0_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.Kernel.FrBase.lean ====
/-
  What the frame of this program is stated over: the contents of the buffers when the kernel region is entered, the
  program as "the region, then the three layout operations", the kernel's two branch conditions in closed form over
  the 32 grid points (point t is key tile t mod 4 of batch t div 4: the first condition holds at tile 0, the second at
  tile 3), where the output window is idle, the staging and scratch memrefs by name, the shares at which the two
  windows that read the one array x hold it (one half each), and the invariant at entry: the two scratch arrays at
  contents nobody names.
-/
import proofs.«103444_j37357625541231_1_alg».proof.Proof.Gen.Kernel.Launch
import proofs.«103444_j37357625541231_1_alg».proof.Proof.Gen.Kernel.Skeleton
import proofs.«103444_j37357625541231_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers' contents when the region is entered: the launch contents (no operation precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- The program is the region continued by the three layout operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem V_eq (c : Dev nD) (b : Ref sig .tc) : V m c b = m ((c : Thread nD τ).loc b) := rfl

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The branch conditions over the grid -/

/-- The first branch's condition (the key tile is the batch's first), from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch's condition (the key tile is the batch's last). -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Where the second condition fails the output window is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- Where it holds the window is live. -/
theorem liveAt0_5 : ∀ t : Fin cfg0.N, cond0_1 (grid0.coords t) → cfg0.idle 5 (grid0.coords t) = false := by decide +kernel

/-! ## The memrefs by name -/

abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x64 .f32 := win0_5.stage (cfg0.slots t 5)
abbrev hs0_5 (t : Fin cfg0.N) : (ms0_5 t).IsWhole := hstage0_5 ((cfg0.slots t 5).cast nbuf0_5)
/-- The two scratch arrays: the batch's query projection and the output accumulator. -/
abbrev scM0_0 : Memref sig .tc .vmem S2048x64 .f32 := Memref.whole cc0_scratch0
abbrev scM0_1 : Memref sig .tc .vmem S2048x64 .f32 := Memref.whole cc0_scratch1
/-- One staging buffer of the output window, and the scratch arrays, as views: contents are stated through them. -/
abbrev VO0_5 : View sig .tc .vmem S1x2048x64 .f32 := (Memref.whole cc0_stg5_0 : Memref sig .tc .vmem S1x2048x64 .f32).view
abbrev VS0_0 : View sig .tc .vmem S2048x64 .f32 := scM0_0.view
abbrev VS0_1 : View sig .tc .vmem S2048x64 .f32 := scM0_1.view

/-! ## Shares and the invariant at entry -/

/-- The two windows on the array x hold one half of it each; every other input window holds its array whole. -/
def qs : Fin cfg0.W → PosShare TreeShare := fun
  | ⟨0, _⟩ => fullShare.left
  | ⟨1, _⟩ => fullShare.right
  | _ => fullShare

/-- Before the first point: the two scratch arrays, each whole, at some contents. -/
def Phi0 (c : Dev nD) : sProp 𝕄 :=
  iprop((∃ d, owns (c : Thread nD τ) scM0_0 fullShare d) ∗ (∃ d, owns (c : Thread nD τ) scM0_1 fullShare d))

/-- The scoped buffers the pipeline does not stage are those two. -/
theorem scopedRest_eq_Phi0 (c : Dev nD) :
    (Pipeline.scopedRest (Ix := Unit) (Name := ℕ) (U := UR sig nD τ) (Lvl := ℕ) (Val := Elt F) spec0 c : sProp 𝕄) = Phi0 c := by
  unfold Phi0; rw [scopedRest0_eq]; simp only [scM0_0, scM0_1, owns_whole]; try rfl

end Cert.Kernel.Fr

end
-- ==== Proof.Kernel.FrRunA.lean ====
/-
  The kernel body at the first key tile of a batch (the first branch taken, the second not): on whole buffers, the
  five input blocks at their contents, the output buffer at any contents (it is handed back untouched) and the two
  scratch arrays at any contents, the body runs to a state holding the inputs and the output buffer as they were and
  each scratch array with a list of pieces written into it. The pieces are found by running the body.
-/
import proofs.«103444_j37357625541231_1_alg».proof.Proof.Kernel.FrBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the two scratch arrays at a batch's first key tile, with the run that leaves them. -/
noncomputable def kernelRun0_A (c : Dev nD) (i : grid0.Coords) (arg2 : Memref sig .tc .vmem S1x2048x1024 .f32) (harg2 : arg2.IsWhole) (arg3 : Memref sig .tc .vmem S1x512x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S1x2048x64 .f32) (harg7 : arg7.IsWhole) (arg8 : Memref sig .tc .vmem S2048x64 .f32) (harg8 : arg8.IsWhole) (arg9 : Memref sig .tc .vmem S2048x64 .f32) (harg9 : arg9.IsWhole) (hc0 : cond0_0 i) (hc1 : ¬cond0_1 i)
    (x0 : Vec F S1x2048x1024 .f32) (x1 : Vec F S1x512x1024 .f32) (x2 : Vec F S64x1024 .f32) (x3 : Vec F S64x1024 .f32) (x4 : Vec F S64x1024 .f32) :
    Σ' (LS0 : List (View.Piece (Elt F) S2048x64 .f32)), { LS1 : List (View.Piece (Elt F) S2048x64 .f32) //
      ∀ (xi5 : Vec F S1x2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9) K } := by
  refine ⟨?_, ?_, fun xi5 E K => ?run⟩
  case run =>
    simp only [cc0__attn_kernel_eq_skeleton]; unfold cc0__attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Fr

end
-- ==== Proof.Kernel.FrRunB.lean ====
/-
  The kernel body at a middle key tile of a batch (neither branch taken): on whole buffers, the five input blocks at
  their contents, the output buffer at any contents (handed back untouched), the query projection's scratch array at
  what the batch's first tile left (read only, handed back as it was) and the accumulator at what the tile before left,
  the body runs to a state holding all of these as they were but the accumulator, which holds the pieces written.
-/
import proofs.«103444_j37357625541231_1_alg».proof.Proof.Kernel.FrRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the accumulator at a middle key tile, with the run that leaves them. -/
noncomputable def kernelRun0_B (c : Dev nD) (i : grid0.Coords) (arg2 : Memref sig .tc .vmem S1x2048x1024 .f32) (harg2 : arg2.IsWhole) (arg3 : Memref sig .tc .vmem S1x512x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S1x2048x64 .f32) (harg7 : arg7.IsWhole) (arg8 : Memref sig .tc .vmem S2048x64 .f32) (harg8 : arg8.IsWhole) (arg9 : Memref sig .tc .vmem S2048x64 .f32) (harg9 : arg9.IsWhole) (hc0 : ¬cond0_0 i) (hc1 : ¬cond0_1 i)
    (x0 : Vec F S1x2048x1024 .f32) (x1 : Vec F S1x512x1024 .f32) (x2 : Vec F S64x1024 .f32) (x3 : Vec F S64x1024 .f32) (x4 : Vec F S64x1024 .f32) (xs0 : Vec F S2048x64 .f32) (xs1 : Vec F S2048x64 .f32) :
    { LS1 : List (View.Piece (Elt F) S2048x64 .f32) //
      ∀ (xi5 : Vec F S1x2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ (∃ f, arg9.view.loc (c : Thread nD τ) ↦[arg9.view.set]{fullShare} arg9.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9) K } := by
  refine ⟨?_, fun xi5 E K => ?run⟩
  case run =>
    simp only [cc0__attn_kernel_eq_skeleton]; unfold cc0__attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; isplitr; · ipureintro; exact harg8.read_unread _
      iexact HS0
    iexists _; iexact HS1

end Cert.Kernel.Fr

end
-- ==== Proof.Kernel.FrRunC.lean ====
/-
  The kernel body at the last key tile of a batch (the first branch not taken, the second taken): on whole buffers,
  the five input blocks at their contents, the output buffer at any contents, the query projection's scratch array at
  what the batch's first tile left (read only) and the accumulator at what the tile before left, the body runs to a
  state holding the inputs and the query projection as they were, and the accumulator and the output buffer each with
  the pieces written into it.
-/
import proofs.«103444_j37357625541231_1_alg».proof.Proof.Kernel.FrRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output buffer and the accumulator at a batch's last key tile, with the run. -/
noncomputable def kernelRun0_C (c : Dev nD) (i : grid0.Coords) (arg2 : Memref sig .tc .vmem S1x2048x1024 .f32) (harg2 : arg2.IsWhole) (arg3 : Memref sig .tc .vmem S1x512x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S1x2048x64 .f32) (harg7 : arg7.IsWhole) (arg8 : Memref sig .tc .vmem S2048x64 .f32) (harg8 : arg8.IsWhole) (arg9 : Memref sig .tc .vmem S2048x64 .f32) (harg9 : arg9.IsWhole) (hc0 : ¬cond0_0 i) (hc1 : cond0_1 i)
    (x0 : Vec F S1x2048x1024 .f32) (x1 : Vec F S1x512x1024 .f32) (x2 : Vec F S64x1024 .f32) (x3 : Vec F S64x1024 .f32) (x4 : Vec F S64x1024 .f32) (xs0 : Vec F S2048x64 .f32) (xs1 : Vec F S2048x64 .f32) :
    Σ' (L5 : List (View.Piece (Elt F) S1x2048x64 .f32)), { LS1 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0 ∗ (∃ f, arg9.view.loc (c : Thread nD τ) ↦[arg9.view.set]{fullShare} arg9.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9) K } := by
  refine ⟨?_, ?_, fun E K => ?run⟩
  case run =>
    simp only [cc0__attn_kernel_eq_skeleton]; unfold cc0__attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    iexists _; iexact HS1

end Cert.Kernel.Fr

end
-- ==== Proof.Kernel.FrBody.lean ====
/-
  The body obligation of the one pipeline and its proof data. What the two scratch arrays hold after each grid point is
  a recursion on the point in the kernel's own payloads: at a batch's first key tile the query projection is computed
  from the batch's block and the accumulator is the tile's contribution added to zero; at a later tile the query
  projection is what it was and the accumulator is the tile's contribution added to what the tile before left. The
  output window's buffer holds, after a batch's last tile, the accumulator reshaped. Each run's found pieces are read
  back to these payloads (every load and store is of a whole buffer, so the last piece written covers it), and the
  three runs give the body obligation by cases on the tile.
-/
import proofs.«103444_j37357625541231_1_alg».proof.Proof.Kernel.FrRunC
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, rank 2 and rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## What each run's pieces read back to -/

section Pieces

variable (c : Dev nD) (i : grid0.Coords) (arg2 : Memref sig .tc .vmem S1x2048x1024 .f32) (harg2 : arg2.IsWhole) (arg3 : Memref sig .tc .vmem S1x512x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S1x2048x64 .f32) (harg7 : arg7.IsWhole) (arg8 : Memref sig .tc .vmem S2048x64 .f32) (harg8 : arg8.IsWhole) (arg9 : Memref sig .tc .vmem S2048x64 .f32) (harg9 : arg9.IsWhole)
variable (x0 : Vec F S1x2048x1024 .f32) (x1 : Vec F S1x512x1024 .f32) (x2 : Vec F S64x1024 .f32) (x3 : Vec F S64x1024 .f32) (x4 : Vec F S64x1024 .f32) (xs0 : Vec F S2048x64 .f32) (xs1 : Vec F S2048x64 .f32)

/-- First tile: the query projection's scratch array ends at the projection of the batch's block. -/
theorem runA_S0 (hc0 : cond0_0 i) (hc1 : ¬cond0_1 i) (v : View sig .tc .vmem S2048x64 .f32) (f : v.ty.Contents (Elt F)) :
    v.read (Elt F) (v.writes (Elt F) f (kernelRun0_A c i arg2 harg2 arg3 harg3 arg4 harg4 arg5 harg5 arg6 harg6 arg7 harg7 arg8 harg8 arg9 harg9 hc0 hc1 x0 x1 x2 x3 x4).1) = k0_pay2 x0 x2 := by
  unfold kernelRun0_A
  dsimp only
  sl_unfold_words
  rw [View.read_writes_eq_canon _ _ _ (fun y => ⟨_, List.mem_cons_self, View.mem_set_unit_zero hz2 inb_S2048x64_S2048x64_0_0 y⟩)]
  rw [View.canon_unit_zero hz2]
  simp only [View.readAt_eq_ld, harg2.read_unread, harg3.read_unread, harg4.read_unread, harg5.read_unread, harg6.read_unread, harg8.read_unread, harg9.read_unread, View.ld_unit_zero (S := S1x2048x1024) hz3, View.ld_unit_zero (S := S1x512x1024) hz3, View.ld_unit_zero (S := S64x1024) hz2, View.ld_unit_zero (S := S2048x64) hz2]

/-- First tile: the accumulator ends at the tile's contribution added to zero. -/
theorem runA_S1 (hc0 : cond0_0 i) (hc1 : ¬cond0_1 i) (v : View sig .tc .vmem S2048x64 .f32) (f : v.ty.Contents (Elt F)) :
    v.read (Elt F) (v.writes (Elt F) f (kernelRun0_A c i arg2 harg2 arg3 harg3 arg4 harg4 arg5 harg5 arg6 harg6 arg7 harg7 arg8 harg8 arg9 harg9 hc0 hc1 x0 x1 x2 x3 x4).2.1) = k0_pay4 x1 x3 x4 (k0_pay2 x0 x2) k0_pay3 := by
  unfold kernelRun0_A
  dsimp only
  sl_unfold_words
  rw [View.read_writes_eq_canon _ _ _ (fun y => ⟨_, List.mem_cons_self, View.mem_set_unit_zero hz2 inb_S2048x64_S2048x64_0_0 y⟩)]
  rw [View.canon_cons_unit_zero hz2]
  rw [View.readCov_unit_zero _ hz2, View.readCov_unit_zero _ hz2]
  simp only [View.readAt_eq_ld, harg2.read_unread, harg3.read_unread, harg4.read_unread, harg5.read_unread, harg6.read_unread, harg8.read_unread, harg9.read_unread, View.ld_unit_zero (S := S1x2048x1024) hz3, View.ld_unit_zero (S := S1x512x1024) hz3, View.ld_unit_zero (S := S64x1024) hz2, View.ld_unit_zero (S := S2048x64) hz2]

/-- Middle tile: the accumulator ends at the tile's contribution added to what it held. -/
theorem runB_S1 (hc0 : ¬cond0_0 i) (hc1 : ¬cond0_1 i) (v : View sig .tc .vmem S2048x64 .f32) (f : v.ty.Contents (Elt F)) :
    v.read (Elt F) (v.writes (Elt F) f (kernelRun0_B c i arg2 harg2 arg3 harg3 arg4 harg4 arg5 harg5 arg6 harg6 arg7 harg7 arg8 harg8 arg9 harg9 hc0 hc1 x0 x1 x2 x3 x4 xs0 xs1).1) = k0_pay4 x1 x3 x4 xs0 xs1 := by
  unfold kernelRun0_B
  dsimp only
  sl_unfold_words
  rw [View.read_writes_eq_canon _ _ _ (fun y => ⟨_, List.mem_cons_self, View.mem_set_unit_zero hz2 inb_S2048x64_S2048x64_0_0 y⟩)]
  rw [View.canon_unit_zero hz2]
  simp only [View.readAt_eq_ld, harg2.read_unread, harg3.read_unread, harg4.read_unread, harg5.read_unread, harg6.read_unread, harg8.read_unread, harg9.read_unread, View.ld_unit_zero (S := S1x2048x1024) hz3, View.ld_unit_zero (S := S1x512x1024) hz3, View.ld_unit_zero (S := S64x1024) hz2, View.ld_unit_zero (S := S2048x64) hz2]

/-- Last tile: the accumulator likewise. -/
theorem runC_S1 (hc0 : ¬cond0_0 i) (hc1 : cond0_1 i) (v : View sig .tc .vmem S2048x64 .f32) (f : v.ty.Contents (Elt F)) :
    v.read (Elt F) (v.writes (Elt F) f (kernelRun0_C c i arg2 harg2 arg3 harg3 arg4 harg4 arg5 harg5 arg6 harg6 arg7 harg7 arg8 harg8 arg9 harg9 hc0 hc1 x0 x1 x2 x3 x4 xs0 xs1).2.1) = k0_pay4 x1 x3 x4 xs0 xs1 := by
  unfold kernelRun0_C
  dsimp only
  sl_unfold_words
  rw [View.read_writes_eq_canon _ _ _ (fun y => ⟨_, List.mem_cons_self, View.mem_set_unit_zero hz2 inb_S2048x64_S2048x64_0_0 y⟩)]
  rw [View.canon_unit_zero hz2]
  simp only [View.readAt_eq_ld, harg2.read_unread, harg3.read_unread, harg4.read_unread, harg5.read_unread, harg6.read_unread, harg8.read_unread, harg9.read_unread, View.ld_unit_zero (S := S1x2048x1024) hz3, View.ld_unit_zero (S := S1x512x1024) hz3, View.ld_unit_zero (S := S64x1024) hz2, View.ld_unit_zero (S := S2048x64) hz2]

/-- Last tile: the output buffer ends at the accumulator reshaped. -/
theorem runC_O5 (hc0 : ¬cond0_0 i) (hc1 : cond0_1 i) (v : View sig .tc .vmem S1x2048x64 .f32) (f : v.ty.Contents (Elt F)) :
    v.read (Elt F) (v.writes (Elt F) f (kernelRun0_C c i arg2 harg2 arg3 harg3 arg4 harg4 arg5 harg5 arg6 harg6 arg7 harg7 arg8 harg8 arg9 harg9 hc0 hc1 x0 x1 x2 x3 x4 xs0 xs1).1) = k0_pay1 (k0_pay4 x1 x3 x4 xs0 xs1) := by
  unfold kernelRun0_C
  dsimp only
  sl_unfold_words
  rw [View.read_writes_eq_canon _ _ _ (fun y => ⟨_, List.mem_cons_self, View.mem_set_unit_zero hz3 inb_S1x2048x64_S1x2048x64_0_0_0 y⟩)]
  rw [View.canon_unit_zero hz3]
  rw [View.readCov_unit_zero _ hz2]
  simp only [View.readAt_eq_ld, harg2.read_unread, harg3.read_unread, harg4.read_unread, harg5.read_unread, harg6.read_unread, harg8.read_unread, harg9.read_unread, View.ld_unit_zero (S := S1x2048x1024) hz3, View.ld_unit_zero (S := S1x512x1024) hz3, View.ld_unit_zero (S := S64x1024) hz2, View.ld_unit_zero (S := S2048x64) hz2]

end Pieces

variable (m : (ℓ : Loc nD τ sig) → Buf (Elt F) ℓ)

/-! ## What the scratch arrays and the output buffer hold after each point -/

/-- The query projection and the accumulator after the body at position n. -/
def scrAt (c : Dev nD) : (n : ℕ) → n < cfg0.N → Vec F S2048x64 .f32 × Vec F S2048x64 .f32
  | 0, hn => ((k0_pay2 (iblk m c 0 ⟨0, hn⟩) (iblk m c 2 ⟨0, hn⟩)), k0_pay4 (iblk m c 1 ⟨0, hn⟩) (iblk m c 3 ⟨0, hn⟩) (iblk m c 4 ⟨0, hn⟩) (k0_pay2 (iblk m c 0 ⟨0, hn⟩) (iblk m c 2 ⟨0, hn⟩)) k0_pay3)
  | n + 1, hn =>
    if (n + 1) % 4 = 0 then
      ((k0_pay2 (iblk m c 0 ⟨n + 1, hn⟩) (iblk m c 2 ⟨n + 1, hn⟩)), k0_pay4 (iblk m c 1 ⟨n + 1, hn⟩) (iblk m c 3 ⟨n + 1, hn⟩) (iblk m c 4 ⟨n + 1, hn⟩) (k0_pay2 (iblk m c 0 ⟨n + 1, hn⟩) (iblk m c 2 ⟨n + 1, hn⟩)) k0_pay3)
    else
      ((scrAt c n (Nat.lt_of_succ_lt hn)).1, k0_pay4 (iblk m c 1 ⟨n + 1, hn⟩) (iblk m c 3 ⟨n + 1, hn⟩) (iblk m c 4 ⟨n + 1, hn⟩) (scrAt c n (Nat.lt_of_succ_lt hn)).1 (scrAt c n (Nat.lt_of_succ_lt hn)).2)

/-- The output window's buffer after a batch's last tile: the accumulator reshaped (elsewhere nothing reads it). -/
def outAt (c : Dev nD) (n : ℕ) (hn : n < cfg0.N) : Vec F S1x2048x64 .f32 := k0_pay1 (scrAt m c n hn).2

/-- At a batch's first key tile. -/
theorem scr_first (c : Dev nD) (t : Fin cfg0.N) (h : t.val % 4 = 0) :
    scrAt m c t.val t.isLt = ((k0_pay2 (iblk m c 0 t) (iblk m c 2 t)), k0_pay4 (iblk m c 1 t) (iblk m c 3 t) (iblk m c 4 t) (k0_pay2 (iblk m c 0 t) (iblk m c 2 t)) k0_pay3) := by
  obtain ⟨n, hn⟩ := t
  cases n with
  | zero => exact rfl
  | succ n => exact (if_pos h).trans rfl

/-- At a later tile: over what the tile before left. -/
theorem scr_next (c : Dev nD) (t : Fin cfg0.N) (h : t.val % 4 ≠ 0) :
    scrAt m c t.val t.isLt = ((scrAt m c (t.val - 1) (Nat.lt_of_le_of_lt (Nat.sub_le _ _) t.isLt)).1, k0_pay4 (iblk m c 1 t) (iblk m c 3 t) (iblk m c 4 t) (scrAt m c (t.val - 1) (Nat.lt_of_le_of_lt (Nat.sub_le _ _) t.isLt)).1 (scrAt m c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The invariant -/

/-- Before position n: at the first point the scratch arrays at any contents; afterwards at what the point before left. -/
def PhiS (c : Dev nD) : (n : ℕ) → n ≤ cfg0.N → sProp 𝕄
  | 0, _ => Phi0 c
  | n + 1, hn => iprop(owns (c : Thread nD τ) scM0_0 fullShare (scrAt m c n hn).1 ∗ owns (c : Thread nD τ) scM0_1 fullShare (scrAt m c n hn).2)

theorem PhiS_zero (c : Dev nD) (n : ℕ) (h : n ≤ cfg0.N) (hz : n = 0) : PhiS m c n h = Phi0 c := by
  subst hz; rfl

theorem PhiS_succ (c : Dev nD) (n : ℕ) (hn : n < cfg0.N) :
    PhiS m c (n + 1) hn = iprop(owns (c : Thread nD τ) scM0_0 fullShare (scrAt m c n hn).1 ∗ owns (c : Thread nD τ) scM0_1 fullShare (scrAt m c n hn).2) := rfl

theorem PhiS_pos (c : Dev nD) (n : ℕ) (h : n ≤ cfg0.N) (hz : n ≠ 0) :
    PhiS m c n h = iprop(owns (c : Thread nD τ) scM0_0 fullShare (scrAt m c (n - 1) (by omega)).1 ∗ owns (c : Thread nD τ) scM0_1 fullShare (scrAt m c (n - 1) (by omega)).2) := by
  cases n with
  | zero => exact absurd rfl hz
  | succ n => rfl

/-! ## The pipeline's proof data -/

/-- The arrays as the region finds them; after the body each input's buffer at its block and the output's at the
    accumulator reshaped; the invariant above; the two windows on the one array at half shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t.val t.isLt
  Φ t := PhiS m c t.val (Nat.le_of_lt_succ t.isLt)
  q := qs
  owed _ := 0

theorem A_eq (c : Dev nD) (w : Fin cfg0.W) : (dats m 0 c).A w = V m c (Pipeline.arrRef spec0 w) := by
  dsimp only [dats]

theorem q_eq (c : Dev nD) : (dats m 0 c).q = qs := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t.val t.isLt := by dsimp only [dats]

/-- After a batch's last tile the output window's buffer holds the accumulator reshaped. -/
theorem out_last (c : Dev nD) (t : Fin cfg0.N) (h : t.val % 4 = 3) : (dats m 0 c).after 5 t = k0_pay1 (scrAt m c t.val t.isLt).2 := by
  rw [after0_5]; rfl

/-! ## The inputs' buffers hold their blocks at every point -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' buffers hold their blocks; the tile says which run applies; the invariant hands
    the run the scratch arrays (at anything at the first point, at what the point before left afterwards) and takes
    them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5 t (fun h => h1 ((hcond0_1 t).mp h))) (noFlush0_5 t (fun h => h1 ((hcond0_1 t).mp h)))]
      rw [scr_first m c t h0]; (try dsimp only)
      have hrun := (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)).2.2
      by_cases hz : t.val = 0
      · rw [PhiS_castSucc m c t, PhiS_zero m c _ _ hz]; unfold Phi0
        iintro ⟨⟨HS0, HS1⟩, Ho, ⟨%d0, H0⟩, ⟨%d1, H1⟩, ⟨%d2, H2⟩, ⟨%d3, H3⟩, ⟨%d4, H4⟩, ⟨%d5, H5⟩⟩
        iapply (hrun _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1]
        · isplitl [HS0]
          · unfold owns; iexists _; isplitr
            swap; · iexact HS0
            ipureintro; exact runA_S0 c _ _ _ _ _ _ _ _ _ _ _ _ _ _ _ _ _ _ _ _ _ _ _ _ _ _
          · unfold owns; iexists _; isplitr
            swap; · iexact HS1
            ipureintro; exact runA_S1 c _ _ _ _ _ _ _ _ _ _ _ _ _ _ _ _ _ _ _ _ _ _ _ _ _ _
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩⟩
        iapply (hrun _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1]
        · isplitl [HS0]
          · unfold owns; iexists _; isplitr
            swap; · iexact HS0
            ipureintro; exact runA_S0 c _ _ _ _ _ _ _ _ _ _ _ _ _ _ _ _ _ _ _ _ _ _ _ _ _ _
          · unfold owns; iexists _; isplitr
            swap; · iexact HS1
            ipureintro; exact runA_S1 c _ _ _ _ _ _ _ _ _ _ _ _ _ _ _ _ _ _ _ _ _ _ _ _ _ _
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun e => h0 (by rw [e])
    by_cases h1 : t.val % 4 = 3
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t ((hcond0_1 t).mpr h1)], after0_5]
      unfold outAt
      rw [scr_next m c t h0]; (try dsimp only)
      rw [PhiS_castSucc m c t, PhiS_pos m c _ _ hz]
      have hrun := (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (scrAt m c (t.val - 1) (Nat.lt_of_le_of_lt (Nat.sub_le _ _) t.isLt)).1 (scrAt m c (t.val - 1) (Nat.lt_of_le_of_lt (Nat.sub_le _ _) t.isLt)).2).2.2
      iintro ⟨⟨HS0, HS1⟩, Ho, ⟨%d0, H0⟩, ⟨%d1, H1⟩, ⟨%d2, H2⟩, ⟨%d3, H3⟩, ⟨%d4, H4⟩, ⟨%d5, H5⟩⟩
      iapply (hrun Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, HS0, ⟨%es1, HS1⟩⟩
      isplitl [HS0 HS1]
      · isplitl [HS0]; · iexact HS0
        unfold owns; iexists _; isplitr
        swap; · iexact HS1
        ipureintro; exact runC_S1 c _ _ _ _ _ _ _ _ _ _ _ _ _ _ _ _ _ _ _ _ _ _ _ _ _ _ _ _
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact runC_O5 c _ _ _ _ _ _ _ _ _ _ _ _ _ _ _ _ _ _ _ _ _ _ _ _ _ _ _ _
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5 t (fun h => h1 ((hcond0_1 t).mp h))) (noFlush0_5 t (fun h => h1 ((hcond0_1 t).mp h)))]
      rw [scr_next m c t h0]; (try dsimp only)
      rw [PhiS_castSucc m c t, PhiS_pos m c _ _ hz]
      have hrun := (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (scrAt m c (t.val - 1) (Nat.lt_of_le_of_lt (Nat.sub_le _ _) t.isLt)).1 (scrAt m c (t.val - 1) (Nat.lt_of_le_of_lt (Nat.sub_le _ _) t.isLt)).2).2
      iintro ⟨⟨HS0, HS1⟩, Ho, ⟨%d0, H0⟩, ⟨%d1, H1⟩, ⟨%d2, H2⟩, ⟨%d3, H3⟩, ⟨%d4, H4⟩, ⟨%d5, H5⟩⟩
      iapply (hrun _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, ⟨%es1, HS1⟩⟩
      isplitl [HS0 HS1]
      · isplitl [HS0]; · iexact HS0
        unfold owns; iexists _; isplitr
        swap; · iexact HS1
        ipureintro; exact runB_S1 c _ _ _ _ _ _ _ _ _ _ _ _ _ _ _ _ _ _ _ _ _ _ _ _ _ _ _ _
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Phi0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back: the scratch arrays' named contents are forgotten. -/
theorem Phi_out (c : Dev nD) (t : Fin (cfg0.N + 1)) (ht : t.val ≠ 0) : (dats m 0 c).Φ t ⊢ Phi0 c := by
  rw [show (dats m 0 c).Φ t = PhiS m c t.val (Nat.le_of_lt_succ t.isLt) from rfl, PhiS_pos m c _ _ ht]; unfold Phi0
  iintro ⟨HS0, HS1⟩
  isplitl [HS0]
  · iexists _; iexact HS0
  iexists _; iexact HS1

theorem hout (c : Dev nD) : (dats m 0 c).Φ (Fin.last cfg0.N) ⊢ Phi0 c :=
  Phi_out m c _ (by rw [Fin.val_last]; have : cfg0.N = 32 := N_0; omega)

end Cert.Kernel.Fr

end
-- ==== Proof.Kernel.FrLaunch.lean ====
/-
  The launch of this program's one kernel region, for ANY proof data of the pipeline whose arrays are the entry
  contents, whose two readers of x hold one half of it each, and whose invariant starts and ends at the two scratch
  arrays owned: every weakly fair execution terminates, each array of the pipeline ends at what the write-backs
  leave in it, and the three layout operations after the region leave their results as functions of the output
  array.  Two windows read the one array x; it is split between them at entry and put together again at exit.
-/
import proofs.«103444_j37357625541231_1_alg».proof.Proof.Kernel.FrBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

abbrev EP : Emb (UR sig nD τ) (MT nD τ sig Unit (Elt F) ℕ (UR sig nD τ) ℕ) := emb₁

def u₀ : UR sig nD τ := initOf (Pipeline.cells cfgs cellOf_inj) (Pipeline.launchToks cfgs cellOf_inj)

variable (m : (ℓ : Loc nD τ sig) → Buf (Elt F) ℓ) (ρ : Dev nD → PrngReg)

theorem split_arrays (c : Dev nD) (dat : Dat τ (Elt F) Unit ℕ (UR sig nD τ) ℕ cfg0 c) (hq : dat.q = qs)
    (hA : ∀ w, dat.A w = V m c (Pipeline.arrRef spec0 w)) :
    (Pipeline.arrBufs (Ix := Unit) (Name := ℕ) (U := UR sig nD τ) (Lvl := ℕ) spec0 c (V m c) : sProp 𝕄) ⊢ dat.arrays (dat.arrAt · 0) := by
  unfold Pipeline.arrBufs Dat.arrays
  have hL (Φ : Ref sig .tc → sProp 𝕄) : bigSep (Finset.univ.image (Pipeline.arrRef spec0)) Φ
      = iprop(Φ main_arg0 ∗ Φ main_arg1 ∗ Φ main_arg2 ∗ Φ main_arg3 ∗ Φ main_v0) :=
    bigSep_eq_bigSepL_of_eq [main_arg0, main_arg1, main_arg2, main_arg3, main_v0] (by decide) (by decide) Φ
  rw [bigSep_W0, hL]
  have e0 : dat.share 0 = fullShare.left := by unfold Dat.share; rw [hq]; rfl
  have e1 : dat.share 1 = fullShare.right := by unfold Dat.share; rw [hq]; rfl
  have e2 : dat.share 2 = fullShare := by unfold Dat.share; rw [hq]; rfl
  have e3 : dat.share 3 = fullShare := by unfold Dat.share; rw [hq]; rfl
  have e4 : dat.share 4 = fullShare := by unfold Dat.share; rw [hq]; rfl
  have e5 : dat.share 5 = fullShare := by unfold Dat.share; rfl
  rw [e0, e1, e2, e3, e4, e5]
  dsimp only
  rw [show dat.arrAt 0 0 = V m c main_arg0 from hA 0, show dat.arrAt 1 0 = V m c main_arg0 from hA 1,
    show dat.arrAt 2 0 = V m c main_arg1 from hA 2, show dat.arrAt 3 0 = V m c main_arg2 from hA 3,
    show dat.arrAt 4 0 = V m c main_arg3 from hA 4, show dat.arrAt 5 0 = V m c main_v0 from hA 5]
  rw [show (View.whole main_arg0 : View sig .tc _ _ _).set = Finset.univ from (arr_whole0 0).set_eq_univ,
    show (View.whole main_arg1 : View sig .tc _ _ _).set = Finset.univ from (arr_whole0 2).set_eq_univ,
    show (View.whole main_arg2 : View sig .tc _ _ _).set = Finset.univ from (arr_whole0 3).set_eq_univ,
    show (View.whole main_arg3 : View sig .tc _ _ _).set = Finset.univ from (arr_whole0 4).set_eq_univ,
    show (View.whole main_v0 : View sig .tc _ _ _).set = Finset.univ from (arr_whole0 5).set_eq_univ]
  iintro ⟨H0, H1, H2, H3, H4⟩
  ihave H0 := (pointsTo_share (PosShare.mem_left_op_right fullShare)).1 $$ H0
  icases H0 with ⟨Ha, Hb⟩
  isplitl [Ha]; · iexact Ha
  isplitl [Hb]; · iexact Hb
  isplitl [H1]; · iexact H1
  isplitl [H2]; · iexact H2
  isplitl [H3]; · iexact H3
  iexact H4

/-- The buffers the three layout operations touch: the kernel's output array and their three results. -/
def tailSet : Finset (DevRef τ sig) :=
  {Proc.devRef .tc main_v0, Proc.devRef .tc main_v1, Proc.devRef .tc main_v2, Proc.devRef .tc main_v3}

theorem held_tailSet (c : Dev nD) (W : Valuation τ sig (Elt F)) :
    (StableHlo.held (c.tc : Thread nD τ) tailSet W : sProp 𝕄)
      = iprop((((c.tc : Thread nD τ).loc main_v0) ↦{fullShare} W (Proc.devRef .tc main_v0))
          ∗ (((c.tc : Thread nD τ).loc main_v1) ↦{fullShare} W (Proc.devRef .tc main_v1))
          ∗ (((c.tc : Thread nD τ).loc main_v2) ↦{fullShare} W (Proc.devRef .tc main_v2))
          ∗ (((c.tc : Thread nD τ).loc main_v3) ↦{fullShare} W (Proc.devRef .tc main_v3))) := by
  unfold StableHlo.held tailSet
  exact bigSep_eq_bigSepL_of_eq [Proc.devRef .tc main_v0, Proc.devRef .tc main_v1, Proc.devRef .tc main_v2, Proc.devRef .tc main_v3]
    (by decide) (by decide) _

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl | rfl
  · rw [StableHlo.reshape_bufs]; unfold tailSet; decide
  · rw [StableHlo.unary_bufs]; unfold tailSet; decide
  · rw [StableHlo.reshape_bufs]; unfold tailSet; decide

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- What the three layout operations leave, as a valuation, from the output array's final contents. -/
def tailV (c : Dev nD) (o : Buf (Elt F) ((c : Thread nD τ).loc main_v0)) : Valuation τ sig (Elt F) :=
  StableHlo.after hostOps1 (Function.update (V0 m c) (Proc.devRef .tc main_v0) o)

set_option backward.isDefEq.respectTransparency.types false in
theorem tail_run (c : Dev nD) (dat : Dat τ (Elt F) Unit ℕ (UR sig nD τ) ℕ cfg0 c) (Q' : PUnit → sProp 𝕄) :
    iprop((iprop(dat.arrays (dat.arrAt · cfg0.N) ∗ Pipeline.unscopedRest spec0 c (fun b => tailV m c (dat.arrAt 5 cfg0.N) (Proc.devRef .tc b))) -∗ Q' ⟨⟩)
        ∗ boundary (c.tc : Thread nD τ) ∗ dat.arrays (dat.arrAt · cfg0.N) ∗ Pipeline.unscopedRest spec0 c (V m c))
      ⊢ wp frame (wpE (Pipeline.defs (fun q => (cfgs q).toPCfg (Val := Elt F)) defs₀) (Variants.lift Variants.none) (c.tc : Thread nD τ) none) Set.univ
          (Pipeline.chain [StableHlo.seq (hostOps1 (F := F))]) Q' := by
  unfold Dat.arrays
  rw [bigSep_W0, unscopedRest0_eq, unscopedRest0_eq]
  have e5 : dat.share 5 = fullShare := by unfold Dat.share; rfl
  rw [e5, show (View.whole main_v0 : View sig .tc _ _ _).set = Finset.univ from (arr_whole0 5).set_eq_univ]
  have hne1 : Proc.devRef (τ := τ) .tc main_v1 ≠ Proc.devRef .tc main_v0 := StableHlo.devRef_ne_of_ne (by decide)
  have hne2 : Proc.devRef (τ := τ) .tc main_v2 ≠ Proc.devRef .tc main_v0 := StableHlo.devRef_ne_of_ne (by decide)
  have hne3 : Proc.devRef (τ := τ) .tc main_v3 ≠ Proc.devRef .tc main_v0 := StableHlo.devRef_ne_of_ne (by decide)
  have hkeep : StableHlo.after ([hostOps1] : List (List (HloOp τ sig (Elt F)))).flatten (Function.update (V0 m c) (Proc.devRef .tc main_v0) (dat.arrAt 5 cfg0.N)) (Proc.devRef .tc main_v0)
      = dat.arrAt 5 cfg0.N := by
    rw [StableHlo.after_of_forall_not_mem _ _ fun op hop => ?_, Function.update_self]
    simp only [List.flatten_cons, List.flatten_nil, List.append_nil, hostOps1, List.mem_cons, List.mem_nil_iff, or_false] at hop
    rcases hop with rfl | rfl | rfl
    all_goals simp only [StableHlo.unary_writes, StableHlo.reshape_writes, Finset.mem_singleton]
    all_goals exact StableHlo.devRef_ne_of_ne (by decide)
  have hW := held_tailSet (F := F) c (Function.update (V0 m c) (Proc.devRef .tc main_v0) (dat.arrAt 5 cfg0.N))
  have hW' := held_tailSet (F := F) c (StableHlo.after ([hostOps1] : List (List (HloOp τ sig (Elt F)))).flatten (Function.update (V0 m c) (Proc.devRef .tc main_v0) (dat.arrAt 5 cfg0.N)))
  simp only [Function.update_self, Function.update_of_ne hne1, Function.update_of_ne hne2, Function.update_of_ne hne3] at hW
  rw [hkeep] at hW'
  have hret : iprop(|={Set.univ}=> Q' ⟨⟩) ⊢ wp frame (wpE (Pipeline.defs (fun q => (cfgs q).toPCfg (Val := Elt F)) defs₀) (Variants.lift Variants.none) (c.tc : Thread nD τ) none) Set.univ
      (Pipeline.chain ([] : List (Prog (TpuEff nD τ sig (Elt F) (Pipeline.Sig Λ₀ (Fin 1) fun p => ((cfgs p).toPCfg (Val := Elt F)).Adm) .tc) PUnit))) Q' := by
    rw [Pipeline.chain_nil, wp_pure]
  rw [show ([StableHlo.seq (hostOps1 (F := F))] : List _) = (([hostOps1] : List (List (HloOp τ sig (Elt F)))).map StableHlo.seq ++ []) from rfl]
  iintro ⟨Hk, Hb, ⟨H0, H1, H2, H3, H4, H5⟩, Hv1, Hv2, Hv3⟩
  iapply (Pipeline.wp_seqs_then (fun q => (cfgs q).toPCfg (Val := Elt F)) defs₀ Variants.none c tailSet [] [hostOps1] tail_sub tail_fresh
    (Function.update (V0 m c) (Proc.devRef .tc main_v0) (dat.arrAt 5 cfg0.N))) $$ [Hb H5 Hv1 Hv2 Hv3]
  · isplitl [Hb]; · iexact Hb
    rw [hW]
    isplitl [H5]; · iexact H5
    isplitl [Hv1]; · iexact Hv1
    isplitl [Hv2]; · iexact Hv2
    iexact Hv3
  iintro ⟨Hb, Hh⟩
  iapply hret
  imodintro
  iapply Hk
  ihave Hh := (Entails.of_eq hW') $$ Hh
  icases Hh with ⟨G0, G1, G2, G3⟩
  isplitl [H0 H1 H2 H3 H4 G0]
  · isplitl [H0]; · iexact H0
    isplitl [H1]; · iexact H1
    isplitl [H2]; · iexact H2
    isplitl [H3]; · iexact H3
    isplitl [H4]; · iexact H4
    iexact G0
  isplitl [G1]; · iexact G1
  isplitl [G2]; · iexact G2
  iexact G3

set_option backward.isDefEq.respectTransparency.types false in
/-- The run of the whole program from any memory with zero counters, for any proof data as described at the head of
    this file: every weakly fair execution terminates; each array of the pipeline holds what the write-backs leave
    (an input its entry contents), and the last layout operation's result is the three operations applied to the
    output array's final contents. -/
theorem run_of (dats : (p : Fin 1) → (c : Dev nD) → Dat τ (Elt F) Unit ℕ (UR sig nD τ) ℕ (cfgs p) c)
    (hq : ∀ c, (dats 0 c).q = qs) (hA : ∀ c w, (dats 0 c).A w = V m c (Pipeline.arrRef spec0 w))
    (howed : ∀ c t, (dats 0 c).owed t = 0)
    (hbody : ∀ c, BodyObligationLoose (dats 0 c) (defs₀ (F := F)) Variants.none () Set.univ)
    (hin : ∀ c, Phi0 c ⊢ (dats 0 c).Φ 0) (hout : ∀ c, (dats 0 c).Φ (Fin.last cfg0.N) ⊢ Phi0 c) :
    θ_run defs (onTc (τ := τ) (main (F := F))) ⟨m, fun _ => 0, ρ⟩ (fun r => ∀ c : Dev nD,
      (∀ w, r.2.mem (((cfg0).spec w).arr.view.loc (c : Thread nD τ)) = (dats 0 c).arrAt w cfg0.N)
      ∧ r.2.mem ((c : Thread nD τ).loc main_v3) = tailV m c ((dats 0 c).arrAt 5 cfg0.N) (Proc.devRef .tc main_v3)) :=
  Pipeline.θ_run_region_noSem_pf_tail (fun q => (cfgs q).toPCfg) (fun p => (cfgs p).toPCfg_adm) dats () cellOf_inj (0 : Fin 1) winFacts₀0
    (Pipeline.PreFacts.none _) EP defs₀ Variants.none m ρ main (fun _ => Pipeline.chain [StableHlo.seq hostOps1])
    hbody block_pos0 arr_whole0 stage_whole0 howed u₀ (BI.Entails.refl _) (V m) (hmain m Variants.none)
    (hsplit := fun c => split_arrays m c (dats 0 c) (hq c) (hA c))
    (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (fun b => tailV m c ((dats 0 c).arrAt 5 cfg0.N) (Proc.devRef .tc b)))
    (hX := fun c => by
      rw [Pipeline.unscopedRestP_none]
      iintro H; isplitr; · iempintro
      iexact H)
    (hin := fun c => (show _ ⊢ Phi0 c from by
      rw [← scopedRest_eq_Phi0]
      iintro ⟨-, -, HR⟩; iexact HR).trans (hin c))
    (hout := fun c => (hout c).trans (by
      rw [← scopedRest_eq_Phi0]
      iintro HR; isplitr; · iempintro
      iexact HR))
    (htail := fun c Q' => tail_run m c (dats 0 c) Q')
    (QY := fun c s => ∀ b ∈ Pipeline.restRefs sig spec0, s.mem ((c : Thread nD τ).loc b) = tailV m c ((dats 0 c).arrAt 5 cfg0.N) (Proc.devRef .tc b))
    (hY := fun c s' => by
      iintro ⟨-, HU, HSI⟩
      unfold Pipeline.unscopedRest
      imodintro
      iapply (pointsTo_read_all (Pipeline.restRefs sig spec0) (fun b => (c.tc : Thread nD τ).loc b) (fun b => tailV m c ((dats 0 c).arrAt 5 cfg0.N) (Proc.devRef .tc b)) s')
      isplitl [HU] <;> iassumption)
    (hQ := fun s h c => ⟨(h c).1, (h c).2.2 main_v3 (Pipeline.mem_restRefs_of main_v3 rfl (by decide))⟩)

end Cert.Kernel.Fr

end
-- ==== Proof.Kernel.Frame.lean ====
/-
  The frame of this program and the run its value is read from: the launch (two readers of the one array x) applied
  to the kernel's proof data (what the two scratch arrays and the output window hold after each of the 32 grid
  points).  Every weakly fair execution terminates without a fault; the four argument arrays end as they began,
  since every window on them is an input window; the result is the three layout operations applied to the output
  array as the write-backs leave it.
-/
import proofs.«103444_j37357625541231_1_alg».proof.Proof.Kernel.FrBody
import proofs.«103444_j37357625541231_1_alg».proof.Proof.Kernel.FrLaunch

set_option maxRecDepth 16384

noncomputable section

namespace Cert.Kernel.Fr

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- The run: every array of the pipeline at what the write-backs leave in it, the result at the three layout
    operations of the output array. -/
theorem run_main : θ_run defs (onTc (τ := τ) (main (F := F))) ⟨m, fun _ => 0, ρ⟩ (fun r => ∀ c : Dev nD,
      (∀ w, r.2.mem (((cfg0).spec w).arr.view.loc (c : Thread nD τ)) = (dats m 0 c).arrAt w cfg0.N)
      ∧ r.2.mem ((c : Thread nD τ).loc main_v3) = tailV m c ((dats m 0 c).arrAt 5 cfg0.N) (Proc.devRef .tc main_v3)) :=
  run_of m ρ (dats m) (q_eq m) (A_eq m) (fun _ _ => rfl) (fun c => (body_obligation m c).loose) (hin m) (hout m)

/-- An input window's array ends at its entry contents, which are the launch contents. -/
theorem kept (c : Dev nD) (w : Fin cfg0.W) (hw : (cfg0.win w).isOut = false) :
    (dats m 0 c).arrAt w cfg0.N = V m c (Pipeline.arrRef spec0 w) :=
  ((dats m 0 c).arrAt_in w hw _).trans (A_eq m c w)

/-- The frame: the program runs to the end, faults nowhere, and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (kept m c 0 rfl), ((h c).1 2).trans (kept m c 2 rfl), ((h c).1 3).trans (kept m c 3 rfl), ((h c).1 4).trans (kept m c 4 rfl)⟩)
    (run_main m ρ)

end Cert.Kernel.Fr

end
-- ==== Proof.KernelIdeal.FrBase.lean ====
/-
  What the frame of this program is stated over: the contents of the buffers when the kernel region is entered, the
  program as "the region, then the three layout operations", the kernel's two branch conditions in closed form over
  the 32 grid points (point t is key tile t mod 4 of batch t div 4: the first condition holds at tile 0, the second at
  tile 3), where the output window is idle, the staging and scratch memrefs by name, the shares at which the two
  windows that read the one array x hold it (one half each), and the invariant at entry: the two scratch arrays at
  contents nobody names.
-/
import proofs.«103444_j37357625541231_1_alg».proof.Proof.Gen.KernelIdeal.Launch
import proofs.«103444_j37357625541231_1_alg».proof.Proof.Gen.KernelIdeal.Skeleton
import proofs.«103444_j37357625541231_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers' contents when the region is entered: the launch contents (no operation precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- The program is the region continued by the three layout operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem V_eq (c : Dev nD) (b : Ref sig .tc) : V m c b = m ((c : Thread nD τ).loc b) := rfl

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The branch conditions over the grid -/

/-- The first branch's condition (the key tile is the batch's first), from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch's condition (the key tile is the batch's last). -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Where the second condition fails the output window is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- Where it holds the window is live. -/
theorem liveAt0_5 : ∀ t : Fin cfg0.N, cond0_1 (grid0.coords t) → cfg0.idle 5 (grid0.coords t) = false := by decide +kernel

/-! ## The memrefs by name -/

abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x64 .f32 := win0_5.stage (cfg0.slots t 5)
abbrev hs0_5 (t : Fin cfg0.N) : (ms0_5 t).IsWhole := hstage0_5 ((cfg0.slots t 5).cast nbuf0_5)
/-- The two scratch arrays: the batch's query projection and the output accumulator. -/
abbrev scM0_0 : Memref sig .tc .vmem S2048x64 .f32 := Memref.whole cc0_scratch0
abbrev scM0_1 : Memref sig .tc .vmem S2048x64 .f32 := Memref.whole cc0_scratch1
/-- One staging buffer of the output window, and the scratch arrays, as views: contents are stated through them. -/
abbrev VO0_5 : View sig .tc .vmem S1x2048x64 .f32 := (Memref.whole cc0_stg5_0 : Memref sig .tc .vmem S1x2048x64 .f32).view
abbrev VS0_0 : View sig .tc .vmem S2048x64 .f32 := scM0_0.view
abbrev VS0_1 : View sig .tc .vmem S2048x64 .f32 := scM0_1.view

/-! ## Shares and the invariant at entry -/

/-- The two windows on the array x hold one half of it each; every other input window holds its array whole. -/
def qs : Fin cfg0.W → PosShare TreeShare := fun
  | ⟨0, _⟩ => fullShare.left
  | ⟨1, _⟩ => fullShare.right
  | _ => fullShare

/-- Before the first point: the two scratch arrays, each whole, at some contents. -/
def Phi0 (c : Dev nD) : sProp 𝕄 :=
  iprop((∃ d, owns (c : Thread nD τ) scM0_0 fullShare d) ∗ (∃ d, owns (c : Thread nD τ) scM0_1 fullShare d))

/-- The scoped buffers the pipeline does not stage are those two. -/
theorem scopedRest_eq_Phi0 (c : Dev nD) :
    (Pipeline.scopedRest (Ix := Unit) (Name := ℕ) (U := UR sig nD τ) (Lvl := ℕ) (Val := Elt F) spec0 c : sProp 𝕄) = Phi0 c := by
  unfold Phi0; rw [scopedRest0_eq]; simp only [scM0_0, scM0_1, owns_whole]; try rfl

end Cert.KernelIdeal.Fr

end
-- ==== Proof.KernelIdeal.FrRunA.lean ====
/-
  The kernel body at the first key tile of a batch (the first branch taken, the second not): on whole buffers, the
  five input blocks at their contents, the output buffer at any contents (it is handed back untouched) and the two
  scratch arrays at any contents, the body runs to a state holding the inputs and the output buffer as they were and
  each scratch array with a list of pieces written into it. The pieces are found by running the body.
-/
import proofs.«103444_j37357625541231_1_alg».proof.Proof.KernelIdeal.FrBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the two scratch arrays at a batch's first key tile, with the run that leaves them. -/
noncomputable def kernelRun0_A (c : Dev nD) (i : grid0.Coords) (arg2 : Memref sig .tc .vmem S1x2048x1024 .f32) (harg2 : arg2.IsWhole) (arg3 : Memref sig .tc .vmem S1x512x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S1x2048x64 .f32) (harg7 : arg7.IsWhole) (arg8 : Memref sig .tc .vmem S2048x64 .f32) (harg8 : arg8.IsWhole) (arg9 : Memref sig .tc .vmem S2048x64 .f32) (harg9 : arg9.IsWhole) (hc0 : cond0_0 i) (hc1 : ¬cond0_1 i)
    (x0 : Vec F S1x2048x1024 .f32) (x1 : Vec F S1x512x1024 .f32) (x2 : Vec F S64x1024 .f32) (x3 : Vec F S64x1024 .f32) (x4 : Vec F S64x1024 .f32) :
    Σ' (LS0 : List (View.Piece (Elt F) S2048x64 .f32)), { LS1 : List (View.Piece (Elt F) S2048x64 .f32) //
      ∀ (xi5 : Vec F S1x2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9) K } := by
  refine ⟨?_, ?_, fun xi5 E K => ?run⟩
  case run =>
    simp only [cc0__attn_kernel_eq_skeleton]; unfold cc0__attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Fr

end
-- ==== Proof.KernelIdeal.FrRunB.lean ====
/-
  The kernel body at a middle key tile of a batch (neither branch taken): on whole buffers, the five input blocks at
  their contents, the output buffer at any contents (handed back untouched), the query projection's scratch array at
  what the batch's first tile left (read only, handed back as it was) and the accumulator at what the tile before left,
  the body runs to a state holding all of these as they were but the accumulator, which holds the pieces written.
-/
import proofs.«103444_j37357625541231_1_alg».proof.Proof.KernelIdeal.FrRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the accumulator at a middle key tile, with the run that leaves them. -/
noncomputable def kernelRun0_B (c : Dev nD) (i : grid0.Coords) (arg2 : Memref sig .tc .vmem S1x2048x1024 .f32) (harg2 : arg2.IsWhole) (arg3 : Memref sig .tc .vmem S1x512x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S1x2048x64 .f32) (harg7 : arg7.IsWhole) (arg8 : Memref sig .tc .vmem S2048x64 .f32) (harg8 : arg8.IsWhole) (arg9 : Memref sig .tc .vmem S2048x64 .f32) (harg9 : arg9.IsWhole) (hc0 : ¬cond0_0 i) (hc1 : ¬cond0_1 i)
    (x0 : Vec F S1x2048x1024 .f32) (x1 : Vec F S1x512x1024 .f32) (x2 : Vec F S64x1024 .f32) (x3 : Vec F S64x1024 .f32) (x4 : Vec F S64x1024 .f32) (xs0 : Vec F S2048x64 .f32) (xs1 : Vec F S2048x64 .f32) :
    { LS1 : List (View.Piece (Elt F) S2048x64 .f32) //
      ∀ (xi5 : Vec F S1x2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ (∃ f, arg9.view.loc (c : Thread nD τ) ↦[arg9.view.set]{fullShare} arg9.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9) K } := by
  refine ⟨?_, fun xi5 E K => ?run⟩
  case run =>
    simp only [cc0__attn_kernel_eq_skeleton]; unfold cc0__attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; isplitr; · ipureintro; exact harg8.read_unread _
      iexact HS0
    iexists _; iexact HS1

end Cert.KernelIdeal.Fr

end
-- ==== Proof.KernelIdeal.FrRunC.lean ====
/-
  The kernel body at the last key tile of a batch (the first branch not taken, the second taken): on whole buffers,
  the five input blocks at their contents, the output buffer at any contents, the query projection's scratch array at
  what the batch's first tile left (read only) and the accumulator at what the tile before left, the body runs to a
  state holding the inputs and the query projection as they were, and the accumulator and the output buffer each with
  the pieces written into it.
-/
import proofs.«103444_j37357625541231_1_alg».proof.Proof.KernelIdeal.FrRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output buffer and the accumulator at a batch's last key tile, with the run. -/
noncomputable def kernelRun0_C (c : Dev nD) (i : grid0.Coords) (arg2 : Memref sig .tc .vmem S1x2048x1024 .f32) (harg2 : arg2.IsWhole) (arg3 : Memref sig .tc .vmem S1x512x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S1x2048x64 .f32) (harg7 : arg7.IsWhole) (arg8 : Memref sig .tc .vmem S2048x64 .f32) (harg8 : arg8.IsWhole) (arg9 : Memref sig .tc .vmem S2048x64 .f32) (harg9 : arg9.IsWhole) (hc0 : ¬cond0_0 i) (hc1 : cond0_1 i)
    (x0 : Vec F S1x2048x1024 .f32) (x1 : Vec F S1x512x1024 .f32) (x2 : Vec F S64x1024 .f32) (x3 : Vec F S64x1024 .f32) (x4 : Vec F S64x1024 .f32) (xs0 : Vec F S2048x64 .f32) (xs1 : Vec F S2048x64 .f32) :
    Σ' (L5 : List (View.Piece (Elt F) S1x2048x64 .f32)), { LS1 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0 ∗ (∃ f, arg9.view.loc (c : Thread nD τ) ↦[arg9.view.set]{fullShare} arg9.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9) K } := by
  refine ⟨?_, ?_, fun E K => ?run⟩
  case run =>
    simp only [cc0__attn_kernel_eq_skeleton]; unfold cc0__attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    iexists _; iexact HS1

end Cert.KernelIdeal.Fr

end
-- ==== Proof.KernelIdeal.FrBody.lean ====
/-
  The body obligation of the one pipeline and its proof data. What the two scratch arrays hold after each grid point is
  a recursion on the point in the kernel's own payloads: at a batch's first key tile the query projection is computed
  from the batch's block and the accumulator is the tile's contribution added to zero; at a later tile the query
  projection is what it was and the accumulator is the tile's contribution added to what the tile before left. The
  output window's buffer holds, after a batch's last tile, the accumulator reshaped. Each run's found pieces are read
  back to these payloads (every load and store is of a whole buffer, so the last piece written covers it), and the
  three runs give the body obligation by cases on the tile.
-/
import proofs.«103444_j37357625541231_1_alg».proof.Proof.KernelIdeal.FrRunC
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, rank 2 and rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## What each run's pieces read back to -/

section Pieces

variable (c : Dev nD) (i : grid0.Coords) (arg2 : Memref sig .tc .vmem S1x2048x1024 .f32) (harg2 : arg2.IsWhole) (arg3 : Memref sig .tc .vmem S1x512x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S1x2048x64 .f32) (harg7 : arg7.IsWhole) (arg8 : Memref sig .tc .vmem S2048x64 .f32) (harg8 : arg8.IsWhole) (arg9 : Memref sig .tc .vmem S2048x64 .f32) (harg9 : arg9.IsWhole)
variable (x0 : Vec F S1x2048x1024 .f32) (x1 : Vec F S1x512x1024 .f32) (x2 : Vec F S64x1024 .f32) (x3 : Vec F S64x1024 .f32) (x4 : Vec F S64x1024 .f32) (xs0 : Vec F S2048x64 .f32) (xs1 : Vec F S2048x64 .f32)

/-- First tile: the query projection's scratch array ends at the projection of the batch's block. -/
theorem runA_S0 (hc0 : cond0_0 i) (hc1 : ¬cond0_1 i) (v : View sig .tc .vmem S2048x64 .f32) (f : v.ty.Contents (Elt F)) :
    v.read (Elt F) (v.writes (Elt F) f (kernelRun0_A c i arg2 harg2 arg3 harg3 arg4 harg4 arg5 harg5 arg6 harg6 arg7 harg7 arg8 harg8 arg9 harg9 hc0 hc1 x0 x1 x2 x3 x4).1) = k0_pay2 x0 x2 := by
  unfold kernelRun0_A
  dsimp only
  sl_unfold_words
  rw [View.read_writes_eq_canon _ _ _ (fun y => ⟨_, List.mem_cons_self, View.mem_set_unit_zero hz2 inb_S2048x64_S2048x64_0_0 y⟩)]
  rw [View.canon_unit_zero hz2]
  simp only [View.readAt_eq_ld, harg2.read_unread, harg3.read_unread, harg4.read_unread, harg5.read_unread, harg6.read_unread, harg8.read_unread, harg9.read_unread, View.ld_unit_zero (S := S1x2048x1024) hz3, View.ld_unit_zero (S := S1x512x1024) hz3, View.ld_unit_zero (S := S64x1024) hz2, View.ld_unit_zero (S := S2048x64) hz2]

/-- First tile: the accumulator ends at the tile's contribution added to zero. -/
theorem runA_S1 (hc0 : cond0_0 i) (hc1 : ¬cond0_1 i) (v : View sig .tc .vmem S2048x64 .f32) (f : v.ty.Contents (Elt F)) :
    v.read (Elt F) (v.writes (Elt F) f (kernelRun0_A c i arg2 harg2 arg3 harg3 arg4 harg4 arg5 harg5 arg6 harg6 arg7 harg7 arg8 harg8 arg9 harg9 hc0 hc1 x0 x1 x2 x3 x4).2.1) = k0_pay4 x1 x3 x4 (k0_pay2 x0 x2) k0_pay3 := by
  unfold kernelRun0_A
  dsimp only
  sl_unfold_words
  rw [View.read_writes_eq_canon _ _ _ (fun y => ⟨_, List.mem_cons_self, View.mem_set_unit_zero hz2 inb_S2048x64_S2048x64_0_0 y⟩)]
  rw [View.canon_cons_unit_zero hz2]
  rw [View.readCov_unit_zero _ hz2, View.readCov_unit_zero _ hz2]
  simp only [View.readAt_eq_ld, harg2.read_unread, harg3.read_unread, harg4.read_unread, harg5.read_unread, harg6.read_unread, harg8.read_unread, harg9.read_unread, View.ld_unit_zero (S := S1x2048x1024) hz3, View.ld_unit_zero (S := S1x512x1024) hz3, View.ld_unit_zero (S := S64x1024) hz2, View.ld_unit_zero (S := S2048x64) hz2]

/-- Middle tile: the accumulator ends at the tile's contribution added to what it held. -/
theorem runB_S1 (hc0 : ¬cond0_0 i) (hc1 : ¬cond0_1 i) (v : View sig .tc .vmem S2048x64 .f32) (f : v.ty.Contents (Elt F)) :
    v.read (Elt F) (v.writes (Elt F) f (kernelRun0_B c i arg2 harg2 arg3 harg3 arg4 harg4 arg5 harg5 arg6 harg6 arg7 harg7 arg8 harg8 arg9 harg9 hc0 hc1 x0 x1 x2 x3 x4 xs0 xs1).1) = k0_pay4 x1 x3 x4 xs0 xs1 := by
  unfold kernelRun0_B
  dsimp only
  sl_unfold_words
  rw [View.read_writes_eq_canon _ _ _ (fun y => ⟨_, List.mem_cons_self, View.mem_set_unit_zero hz2 inb_S2048x64_S2048x64_0_0 y⟩)]
  rw [View.canon_unit_zero hz2]
  simp only [View.readAt_eq_ld, harg2.read_unread, harg3.read_unread, harg4.read_unread, harg5.read_unread, harg6.read_unread, harg8.read_unread, harg9.read_unread, View.ld_unit_zero (S := S1x2048x1024) hz3, View.ld_unit_zero (S := S1x512x1024) hz3, View.ld_unit_zero (S := S64x1024) hz2, View.ld_unit_zero (S := S2048x64) hz2]

/-- Last tile: the accumulator likewise. -/
theorem runC_S1 (hc0 : ¬cond0_0 i) (hc1 : cond0_1 i) (v : View sig .tc .vmem S2048x64 .f32) (f : v.ty.Contents (Elt F)) :
    v.read (Elt F) (v.writes (Elt F) f (kernelRun0_C c i arg2 harg2 arg3 harg3 arg4 harg4 arg5 harg5 arg6 harg6 arg7 harg7 arg8 harg8 arg9 harg9 hc0 hc1 x0 x1 x2 x3 x4 xs0 xs1).2.1) = k0_pay4 x1 x3 x4 xs0 xs1 := by
  unfold kernelRun0_C
  dsimp only
  sl_unfold_words
  rw [View.read_writes_eq_canon _ _ _ (fun y => ⟨_, List.mem_cons_self, View.mem_set_unit_zero hz2 inb_S2048x64_S2048x64_0_0 y⟩)]
  rw [View.canon_unit_zero hz2]
  simp only [View.readAt_eq_ld, harg2.read_unread, harg3.read_unread, harg4.read_unread, harg5.read_unread, harg6.read_unread, harg8.read_unread, harg9.read_unread, View.ld_unit_zero (S := S1x2048x1024) hz3, View.ld_unit_zero (S := S1x512x1024) hz3, View.ld_unit_zero (S := S64x1024) hz2, View.ld_unit_zero (S := S2048x64) hz2]

/-- Last tile: the output buffer ends at the accumulator reshaped. -/
theorem runC_O5 (hc0 : ¬cond0_0 i) (hc1 : cond0_1 i) (v : View sig .tc .vmem S1x2048x64 .f32) (f : v.ty.Contents (Elt F)) :
    v.read (Elt F) (v.writes (Elt F) f (kernelRun0_C c i arg2 harg2 arg3 harg3 arg4 harg4 arg5 harg5 arg6 harg6 arg7 harg7 arg8 harg8 arg9 harg9 hc0 hc1 x0 x1 x2 x3 x4 xs0 xs1).1) = k0_pay1 (k0_pay4 x1 x3 x4 xs0 xs1) := by
  unfold kernelRun0_C
  dsimp only
  sl_unfold_words
  rw [View.read_writes_eq_canon _ _ _ (fun y => ⟨_, List.mem_cons_self, View.mem_set_unit_zero hz3 inb_S1x2048x64_S1x2048x64_0_0_0 y⟩)]
  rw [View.canon_unit_zero hz3]
  rw [View.readCov_unit_zero _ hz2]
  simp only [View.readAt_eq_ld, harg2.read_unread, harg3.read_unread, harg4.read_unread, harg5.read_unread, harg6.read_unread, harg8.read_unread, harg9.read_unread, View.ld_unit_zero (S := S1x2048x1024) hz3, View.ld_unit_zero (S := S1x512x1024) hz3, View.ld_unit_zero (S := S64x1024) hz2, View.ld_unit_zero (S := S2048x64) hz2]

end Pieces

variable (m : (ℓ : Loc nD τ sig) → Buf (Elt F) ℓ)

/-! ## What the scratch arrays and the output buffer hold after each point -/

/-- The query projection and the accumulator after the body at position n. -/
def scrAt (c : Dev nD) : (n : ℕ) → n < cfg0.N → Vec F S2048x64 .f32 × Vec F S2048x64 .f32
  | 0, hn => ((k0_pay2 (iblk m c 0 ⟨0, hn⟩) (iblk m c 2 ⟨0, hn⟩)), k0_pay4 (iblk m c 1 ⟨0, hn⟩) (iblk m c 3 ⟨0, hn⟩) (iblk m c 4 ⟨0, hn⟩) (k0_pay2 (iblk m c 0 ⟨0, hn⟩) (iblk m c 2 ⟨0, hn⟩)) k0_pay3)
  | n + 1, hn =>
    if (n + 1) % 4 = 0 then
      ((k0_pay2 (iblk m c 0 ⟨n + 1, hn⟩) (iblk m c 2 ⟨n + 1, hn⟩)), k0_pay4 (iblk m c 1 ⟨n + 1, hn⟩) (iblk m c 3 ⟨n + 1, hn⟩) (iblk m c 4 ⟨n + 1, hn⟩) (k0_pay2 (iblk m c 0 ⟨n + 1, hn⟩) (iblk m c 2 ⟨n + 1, hn⟩)) k0_pay3)
    else
      ((scrAt c n (Nat.lt_of_succ_lt hn)).1, k0_pay4 (iblk m c 1 ⟨n + 1, hn⟩) (iblk m c 3 ⟨n + 1, hn⟩) (iblk m c 4 ⟨n + 1, hn⟩) (scrAt c n (Nat.lt_of_succ_lt hn)).1 (scrAt c n (Nat.lt_of_succ_lt hn)).2)

/-- The output window's buffer after a batch's last tile: the accumulator reshaped (elsewhere nothing reads it). -/
def outAt (c : Dev nD) (n : ℕ) (hn : n < cfg0.N) : Vec F S1x2048x64 .f32 := k0_pay1 (scrAt m c n hn).2

/-- At a batch's first key tile. -/
theorem scr_first (c : Dev nD) (t : Fin cfg0.N) (h : t.val % 4 = 0) :
    scrAt m c t.val t.isLt = ((k0_pay2 (iblk m c 0 t) (iblk m c 2 t)), k0_pay4 (iblk m c 1 t) (iblk m c 3 t) (iblk m c 4 t) (k0_pay2 (iblk m c 0 t) (iblk m c 2 t)) k0_pay3) := by
  obtain ⟨n, hn⟩ := t
  cases n with
  | zero => exact rfl
  | succ n => exact (if_pos h).trans rfl

/-- At a later tile: over what the tile before left. -/
theorem scr_next (c : Dev nD) (t : Fin cfg0.N) (h : t.val % 4 ≠ 0) :
    scrAt m c t.val t.isLt = ((scrAt m c (t.val - 1) (Nat.lt_of_le_of_lt (Nat.sub_le _ _) t.isLt)).1, k0_pay4 (iblk m c 1 t) (iblk m c 3 t) (iblk m c 4 t) (scrAt m c (t.val - 1) (Nat.lt_of_le_of_lt (Nat.sub_le _ _) t.isLt)).1 (scrAt m c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The invariant -/

/-- Before position n: at the first point the scratch arrays at any contents; afterwards at what the point before left. -/
def PhiS (c : Dev nD) : (n : ℕ) → n ≤ cfg0.N → sProp 𝕄
  | 0, _ => Phi0 c
  | n + 1, hn => iprop(owns (c : Thread nD τ) scM0_0 fullShare (scrAt m c n hn).1 ∗ owns (c : Thread nD τ) scM0_1 fullShare (scrAt m c n hn).2)

theorem PhiS_zero (c : Dev nD) (n : ℕ) (h : n ≤ cfg0.N) (hz : n = 0) : PhiS m c n h = Phi0 c := by
  subst hz; rfl

theorem PhiS_succ (c : Dev nD) (n : ℕ) (hn : n < cfg0.N) :
    PhiS m c (n + 1) hn = iprop(owns (c : Thread nD τ) scM0_0 fullShare (scrAt m c n hn).1 ∗ owns (c : Thread nD τ) scM0_1 fullShare (scrAt m c n hn).2) := rfl

theorem PhiS_pos (c : Dev nD) (n : ℕ) (h : n ≤ cfg0.N) (hz : n ≠ 0) :
    PhiS m c n h = iprop(owns (c : Thread nD τ) scM0_0 fullShare (scrAt m c (n - 1) (by omega)).1 ∗ owns (c : Thread nD τ) scM0_1 fullShare (scrAt m c (n - 1) (by omega)).2) := by
  cases n with
  | zero => exact absurd rfl hz
  | succ n => rfl

/-! ## The pipeline's proof data -/

/-- The arrays as the region finds them; after the body each input's buffer at its block and the output's at the
    accumulator reshaped; the invariant above; the two windows on the one array at half shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t.val t.isLt
  Φ t := PhiS m c t.val (Nat.le_of_lt_succ t.isLt)
  q := qs
  owed _ := 0

theorem A_eq (c : Dev nD) (w : Fin cfg0.W) : (dats m 0 c).A w = V m c (Pipeline.arrRef spec0 w) := by
  dsimp only [dats]

theorem q_eq (c : Dev nD) : (dats m 0 c).q = qs := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t.val t.isLt := by dsimp only [dats]

/-- After a batch's last tile the output window's buffer holds the accumulator reshaped. -/
theorem out_last (c : Dev nD) (t : Fin cfg0.N) (h : t.val % 4 = 3) : (dats m 0 c).after 5 t = k0_pay1 (scrAt m c t.val t.isLt).2 := by
  rw [after0_5]; rfl

/-! ## The inputs' buffers hold their blocks at every point -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' buffers hold their blocks; the tile says which run applies; the invariant hands
    the run the scratch arrays (at anything at the first point, at what the point before left afterwards) and takes
    them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5 t (fun h => h1 ((hcond0_1 t).mp h))) (noFlush0_5 t (fun h => h1 ((hcond0_1 t).mp h)))]
      rw [scr_first m c t h0]; (try dsimp only)
      have hrun := (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)).2.2
      by_cases hz : t.val = 0
      · rw [PhiS_castSucc m c t, PhiS_zero m c _ _ hz]; unfold Phi0
        iintro ⟨⟨HS0, HS1⟩, Ho, ⟨%d0, H0⟩, ⟨%d1, H1⟩, ⟨%d2, H2⟩, ⟨%d3, H3⟩, ⟨%d4, H4⟩, ⟨%d5, H5⟩⟩
        iapply (hrun _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1]
        · isplitl [HS0]
          · unfold owns; iexists _; isplitr
            swap; · iexact HS0
            ipureintro; exact runA_S0 c _ _ _ _ _ _ _ _ _ _ _ _ _ _ _ _ _ _ _ _ _ _ _ _ _ _
          · unfold owns; iexists _; isplitr
            swap; · iexact HS1
            ipureintro; exact runA_S1 c _ _ _ _ _ _ _ _ _ _ _ _ _ _ _ _ _ _ _ _ _ _ _ _ _ _
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩⟩
        iapply (hrun _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1]
        · isplitl [HS0]
          · unfold owns; iexists _; isplitr
            swap; · iexact HS0
            ipureintro; exact runA_S0 c _ _ _ _ _ _ _ _ _ _ _ _ _ _ _ _ _ _ _ _ _ _ _ _ _ _
          · unfold owns; iexists _; isplitr
            swap; · iexact HS1
            ipureintro; exact runA_S1 c _ _ _ _ _ _ _ _ _ _ _ _ _ _ _ _ _ _ _ _ _ _ _ _ _ _
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun e => h0 (by rw [e])
    by_cases h1 : t.val % 4 = 3
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t ((hcond0_1 t).mpr h1)], after0_5]
      unfold outAt
      rw [scr_next m c t h0]; (try dsimp only)
      rw [PhiS_castSucc m c t, PhiS_pos m c _ _ hz]
      have hrun := (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (scrAt m c (t.val - 1) (Nat.lt_of_le_of_lt (Nat.sub_le _ _) t.isLt)).1 (scrAt m c (t.val - 1) (Nat.lt_of_le_of_lt (Nat.sub_le _ _) t.isLt)).2).2.2
      iintro ⟨⟨HS0, HS1⟩, Ho, ⟨%d0, H0⟩, ⟨%d1, H1⟩, ⟨%d2, H2⟩, ⟨%d3, H3⟩, ⟨%d4, H4⟩, ⟨%d5, H5⟩⟩
      iapply (hrun Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, HS0, ⟨%es1, HS1⟩⟩
      isplitl [HS0 HS1]
      · isplitl [HS0]; · iexact HS0
        unfold owns; iexists _; isplitr
        swap; · iexact HS1
        ipureintro; exact runC_S1 c _ _ _ _ _ _ _ _ _ _ _ _ _ _ _ _ _ _ _ _ _ _ _ _ _ _ _ _
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact runC_O5 c _ _ _ _ _ _ _ _ _ _ _ _ _ _ _ _ _ _ _ _ _ _ _ _ _ _ _ _
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5 t (fun h => h1 ((hcond0_1 t).mp h))) (noFlush0_5 t (fun h => h1 ((hcond0_1 t).mp h)))]
      rw [scr_next m c t h0]; (try dsimp only)
      rw [PhiS_castSucc m c t, PhiS_pos m c _ _ hz]
      have hrun := (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (scrAt m c (t.val - 1) (Nat.lt_of_le_of_lt (Nat.sub_le _ _) t.isLt)).1 (scrAt m c (t.val - 1) (Nat.lt_of_le_of_lt (Nat.sub_le _ _) t.isLt)).2).2
      iintro ⟨⟨HS0, HS1⟩, Ho, ⟨%d0, H0⟩, ⟨%d1, H1⟩, ⟨%d2, H2⟩, ⟨%d3, H3⟩, ⟨%d4, H4⟩, ⟨%d5, H5⟩⟩
      iapply (hrun _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, ⟨%es1, HS1⟩⟩
      isplitl [HS0 HS1]
      · isplitl [HS0]; · iexact HS0
        unfold owns; iexists _; isplitr
        swap; · iexact HS1
        ipureintro; exact runB_S1 c _ _ _ _ _ _ _ _ _ _ _ _ _ _ _ _ _ _ _ _ _ _ _ _ _ _ _ _
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Phi0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back: the scratch arrays' named contents are forgotten. -/
theorem Phi_out (c : Dev nD) (t : Fin (cfg0.N + 1)) (ht : t.val ≠ 0) : (dats m 0 c).Φ t ⊢ Phi0 c := by
  rw [show (dats m 0 c).Φ t = PhiS m c t.val (Nat.le_of_lt_succ t.isLt) from rfl, PhiS_pos m c _ _ ht]; unfold Phi0
  iintro ⟨HS0, HS1⟩
  isplitl [HS0]
  · iexists _; iexact HS0
  iexists _; iexact HS1

theorem hout (c : Dev nD) : (dats m 0 c).Φ (Fin.last cfg0.N) ⊢ Phi0 c :=
  Phi_out m c _ (by rw [Fin.val_last]; have : cfg0.N = 32 := N_0; omega)

end Cert.KernelIdeal.Fr

end
-- ==== Proof.KernelIdeal.FrLaunch.lean ====
/-
  The launch of this program's one kernel region, for ANY proof data of the pipeline whose arrays are the entry
  contents, whose two readers of x hold one half of it each, and whose invariant starts and ends at the two scratch
  arrays owned: every weakly fair execution terminates, each array of the pipeline ends at what the write-backs
  leave in it, and the three layout operations after the region leave their results as functions of the output
  array.  Two windows read the one array x; it is split between them at entry and put together again at exit.
-/
import proofs.«103444_j37357625541231_1_alg».proof.Proof.KernelIdeal.FrBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

abbrev EP : Emb (UR sig nD τ) (MT nD τ sig Unit (Elt F) ℕ (UR sig nD τ) ℕ) := emb₁

def u₀ : UR sig nD τ := initOf (Pipeline.cells cfgs cellOf_inj) (Pipeline.launchToks cfgs cellOf_inj)

variable (m : (ℓ : Loc nD τ sig) → Buf (Elt F) ℓ) (ρ : Dev nD → PrngReg)

theorem split_arrays (c : Dev nD) (dat : Dat τ (Elt F) Unit ℕ (UR sig nD τ) ℕ cfg0 c) (hq : dat.q = qs)
    (hA : ∀ w, dat.A w = V m c (Pipeline.arrRef spec0 w)) :
    (Pipeline.arrBufs (Ix := Unit) (Name := ℕ) (U := UR sig nD τ) (Lvl := ℕ) spec0 c (V m c) : sProp 𝕄) ⊢ dat.arrays (dat.arrAt · 0) := by
  unfold Pipeline.arrBufs Dat.arrays
  have hL (Φ : Ref sig .tc → sProp 𝕄) : bigSep (Finset.univ.image (Pipeline.arrRef spec0)) Φ
      = iprop(Φ main_arg0 ∗ Φ main_arg1 ∗ Φ main_arg2 ∗ Φ main_arg3 ∗ Φ main_v0) :=
    bigSep_eq_bigSepL_of_eq [main_arg0, main_arg1, main_arg2, main_arg3, main_v0] (by decide) (by decide) Φ
  rw [bigSep_W0, hL]
  have e0 : dat.share 0 = fullShare.left := by unfold Dat.share; rw [hq]; rfl
  have e1 : dat.share 1 = fullShare.right := by unfold Dat.share; rw [hq]; rfl
  have e2 : dat.share 2 = fullShare := by unfold Dat.share; rw [hq]; rfl
  have e3 : dat.share 3 = fullShare := by unfold Dat.share; rw [hq]; rfl
  have e4 : dat.share 4 = fullShare := by unfold Dat.share; rw [hq]; rfl
  have e5 : dat.share 5 = fullShare := by unfold Dat.share; rfl
  rw [e0, e1, e2, e3, e4, e5]
  dsimp only
  rw [show dat.arrAt 0 0 = V m c main_arg0 from hA 0, show dat.arrAt 1 0 = V m c main_arg0 from hA 1,
    show dat.arrAt 2 0 = V m c main_arg1 from hA 2, show dat.arrAt 3 0 = V m c main_arg2 from hA 3,
    show dat.arrAt 4 0 = V m c main_arg3 from hA 4, show dat.arrAt 5 0 = V m c main_v0 from hA 5]
  rw [show (View.whole main_arg0 : View sig .tc _ _ _).set = Finset.univ from (arr_whole0 0).set_eq_univ,
    show (View.whole main_arg1 : View sig .tc _ _ _).set = Finset.univ from (arr_whole0 2).set_eq_univ,
    show (View.whole main_arg2 : View sig .tc _ _ _).set = Finset.univ from (arr_whole0 3).set_eq_univ,
    show (View.whole main_arg3 : View sig .tc _ _ _).set = Finset.univ from (arr_whole0 4).set_eq_univ,
    show (View.whole main_v0 : View sig .tc _ _ _).set = Finset.univ from (arr_whole0 5).set_eq_univ]
  iintro ⟨H0, H1, H2, H3, H4⟩
  ihave H0 := (pointsTo_share (PosShare.mem_left_op_right fullShare)).1 $$ H0
  icases H0 with ⟨Ha, Hb⟩
  isplitl [Ha]; · iexact Ha
  isplitl [Hb]; · iexact Hb
  isplitl [H1]; · iexact H1
  isplitl [H2]; · iexact H2
  isplitl [H3]; · iexact H3
  iexact H4

/-- The buffers the three layout operations touch: the kernel's output array and their three results. -/
def tailSet : Finset (DevRef τ sig) :=
  {Proc.devRef .tc main_v0, Proc.devRef .tc main_v1, Proc.devRef .tc main_v2, Proc.devRef .tc main_v3}

theorem held_tailSet (c : Dev nD) (W : Valuation τ sig (Elt F)) :
    (StableHlo.held (c.tc : Thread nD τ) tailSet W : sProp 𝕄)
      = iprop((((c.tc : Thread nD τ).loc main_v0) ↦{fullShare} W (Proc.devRef .tc main_v0))
          ∗ (((c.tc : Thread nD τ).loc main_v1) ↦{fullShare} W (Proc.devRef .tc main_v1))
          ∗ (((c.tc : Thread nD τ).loc main_v2) ↦{fullShare} W (Proc.devRef .tc main_v2))
          ∗ (((c.tc : Thread nD τ).loc main_v3) ↦{fullShare} W (Proc.devRef .tc main_v3))) := by
  unfold StableHlo.held tailSet
  exact bigSep_eq_bigSepL_of_eq [Proc.devRef .tc main_v0, Proc.devRef .tc main_v1, Proc.devRef .tc main_v2, Proc.devRef .tc main_v3]
    (by decide) (by decide) _

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl | rfl
  · rw [StableHlo.reshape_bufs]; unfold tailSet; decide
  · rw [StableHlo.unary_bufs]; unfold tailSet; decide
  · rw [StableHlo.reshape_bufs]; unfold tailSet; decide

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- What the three layout operations leave, as a valuation, from the output array's final contents. -/
def tailV (c : Dev nD) (o : Buf (Elt F) ((c : Thread nD τ).loc main_v0)) : Valuation τ sig (Elt F) :=
  StableHlo.after hostOps1 (Function.update (V0 m c) (Proc.devRef .tc main_v0) o)

set_option backward.isDefEq.respectTransparency.types false in
theorem tail_run (c : Dev nD) (dat : Dat τ (Elt F) Unit ℕ (UR sig nD τ) ℕ cfg0 c) (Q' : PUnit → sProp 𝕄) :
    iprop((iprop(dat.arrays (dat.arrAt · cfg0.N) ∗ Pipeline.unscopedRest spec0 c (fun b => tailV m c (dat.arrAt 5 cfg0.N) (Proc.devRef .tc b))) -∗ Q' ⟨⟩)
        ∗ boundary (c.tc : Thread nD τ) ∗ dat.arrays (dat.arrAt · cfg0.N) ∗ Pipeline.unscopedRest spec0 c (V m c))
      ⊢ wp frame (wpE (Pipeline.defs (fun q => (cfgs q).toPCfg (Val := Elt F)) defs₀) (Variants.lift Variants.none) (c.tc : Thread nD τ) none) Set.univ
          (Pipeline.chain [StableHlo.seq (hostOps1 (F := F))]) Q' := by
  unfold Dat.arrays
  rw [bigSep_W0, unscopedRest0_eq, unscopedRest0_eq]
  have e5 : dat.share 5 = fullShare := by unfold Dat.share; rfl
  rw [e5, show (View.whole main_v0 : View sig .tc _ _ _).set = Finset.univ from (arr_whole0 5).set_eq_univ]
  have hne1 : Proc.devRef (τ := τ) .tc main_v1 ≠ Proc.devRef .tc main_v0 := StableHlo.devRef_ne_of_ne (by decide)
  have hne2 : Proc.devRef (τ := τ) .tc main_v2 ≠ Proc.devRef .tc main_v0 := StableHlo.devRef_ne_of_ne (by decide)
  have hne3 : Proc.devRef (τ := τ) .tc main_v3 ≠ Proc.devRef .tc main_v0 := StableHlo.devRef_ne_of_ne (by decide)
  have hkeep : StableHlo.after ([hostOps1] : List (List (HloOp τ sig (Elt F)))).flatten (Function.update (V0 m c) (Proc.devRef .tc main_v0) (dat.arrAt 5 cfg0.N)) (Proc.devRef .tc main_v0)
      = dat.arrAt 5 cfg0.N := by
    rw [StableHlo.after_of_forall_not_mem _ _ fun op hop => ?_, Function.update_self]
    simp only [List.flatten_cons, List.flatten_nil, List.append_nil, hostOps1, List.mem_cons, List.mem_nil_iff, or_false] at hop
    rcases hop with rfl | rfl | rfl
    all_goals simp only [StableHlo.unary_writes, StableHlo.reshape_writes, Finset.mem_singleton]
    all_goals exact StableHlo.devRef_ne_of_ne (by decide)
  have hW := held_tailSet (F := F) c (Function.update (V0 m c) (Proc.devRef .tc main_v0) (dat.arrAt 5 cfg0.N))
  have hW' := held_tailSet (F := F) c (StableHlo.after ([hostOps1] : List (List (HloOp τ sig (Elt F)))).flatten (Function.update (V0 m c) (Proc.devRef .tc main_v0) (dat.arrAt 5 cfg0.N)))
  simp only [Function.update_self, Function.update_of_ne hne1, Function.update_of_ne hne2, Function.update_of_ne hne3] at hW
  rw [hkeep] at hW'
  have hret : iprop(|={Set.univ}=> Q' ⟨⟩) ⊢ wp frame (wpE (Pipeline.defs (fun q => (cfgs q).toPCfg (Val := Elt F)) defs₀) (Variants.lift Variants.none) (c.tc : Thread nD τ) none) Set.univ
      (Pipeline.chain ([] : List (Prog (TpuEff nD τ sig (Elt F) (Pipeline.Sig Λ₀ (Fin 1) fun p => ((cfgs p).toPCfg (Val := Elt F)).Adm) .tc) PUnit))) Q' := by
    rw [Pipeline.chain_nil, wp_pure]
  rw [show ([StableHlo.seq (hostOps1 (F := F))] : List _) = (([hostOps1] : List (List (HloOp τ sig (Elt F)))).map StableHlo.seq ++ []) from rfl]
  iintro ⟨Hk, Hb, ⟨H0, H1, H2, H3, H4, H5⟩, Hv1, Hv2, Hv3⟩
  iapply (Pipeline.wp_seqs_then (fun q => (cfgs q).toPCfg (Val := Elt F)) defs₀ Variants.none c tailSet [] [hostOps1] tail_sub tail_fresh
    (Function.update (V0 m c) (Proc.devRef .tc main_v0) (dat.arrAt 5 cfg0.N))) $$ [Hb H5 Hv1 Hv2 Hv3]
  · isplitl [Hb]; · iexact Hb
    rw [hW]
    isplitl [H5]; · iexact H5
    isplitl [Hv1]; · iexact Hv1
    isplitl [Hv2]; · iexact Hv2
    iexact Hv3
  iintro ⟨Hb, Hh⟩
  iapply hret
  imodintro
  iapply Hk
  ihave Hh := (Entails.of_eq hW') $$ Hh
  icases Hh with ⟨G0, G1, G2, G3⟩
  isplitl [H0 H1 H2 H3 H4 G0]
  · isplitl [H0]; · iexact H0
    isplitl [H1]; · iexact H1
    isplitl [H2]; · iexact H2
    isplitl [H3]; · iexact H3
    isplitl [H4]; · iexact H4
    iexact G0
  isplitl [G1]; · iexact G1
  isplitl [G2]; · iexact G2
  iexact G3

set_option backward.isDefEq.respectTransparency.types false in
/-- The run of the whole program from any memory with zero counters, for any proof data as described at the head of
    this file: every weakly fair execution terminates; each array of the pipeline holds what the write-backs leave
    (an input its entry contents), and the last layout operation's result is the three operations applied to the
    output array's final contents. -/
theorem run_of (dats : (p : Fin 1) → (c : Dev nD) → Dat τ (Elt F) Unit ℕ (UR sig nD τ) ℕ (cfgs p) c)
    (hq : ∀ c, (dats 0 c).q = qs) (hA : ∀ c w, (dats 0 c).A w = V m c (Pipeline.arrRef spec0 w))
    (howed : ∀ c t, (dats 0 c).owed t = 0)
    (hbody : ∀ c, BodyObligationLoose (dats 0 c) (defs₀ (F := F)) Variants.none () Set.univ)
    (hin : ∀ c, Phi0 c ⊢ (dats 0 c).Φ 0) (hout : ∀ c, (dats 0 c).Φ (Fin.last cfg0.N) ⊢ Phi0 c) :
    θ_run defs (onTc (τ := τ) (main (F := F))) ⟨m, fun _ => 0, ρ⟩ (fun r => ∀ c : Dev nD,
      (∀ w, r.2.mem (((cfg0).spec w).arr.view.loc (c : Thread nD τ)) = (dats 0 c).arrAt w cfg0.N)
      ∧ r.2.mem ((c : Thread nD τ).loc main_v3) = tailV m c ((dats 0 c).arrAt 5 cfg0.N) (Proc.devRef .tc main_v3)) :=
  Pipeline.θ_run_region_noSem_pf_tail (fun q => (cfgs q).toPCfg) (fun p => (cfgs p).toPCfg_adm) dats () cellOf_inj (0 : Fin 1) winFacts₀0
    (Pipeline.PreFacts.none _) EP defs₀ Variants.none m ρ main (fun _ => Pipeline.chain [StableHlo.seq hostOps1])
    hbody block_pos0 arr_whole0 stage_whole0 howed u₀ (BI.Entails.refl _) (V m) (hmain m Variants.none)
    (hsplit := fun c => split_arrays m c (dats 0 c) (hq c) (hA c))
    (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (fun b => tailV m c ((dats 0 c).arrAt 5 cfg0.N) (Proc.devRef .tc b)))
    (hX := fun c => by
      rw [Pipeline.unscopedRestP_none]
      iintro H; isplitr; · iempintro
      iexact H)
    (hin := fun c => (show _ ⊢ Phi0 c from by
      rw [← scopedRest_eq_Phi0]
      iintro ⟨-, -, HR⟩; iexact HR).trans (hin c))
    (hout := fun c => (hout c).trans (by
      rw [← scopedRest_eq_Phi0]
      iintro HR; isplitr; · iempintro
      iexact HR))
    (htail := fun c Q' => tail_run m c (dats 0 c) Q')
    (QY := fun c s => ∀ b ∈ Pipeline.restRefs sig spec0, s.mem ((c : Thread nD τ).loc b) = tailV m c ((dats 0 c).arrAt 5 cfg0.N) (Proc.devRef .tc b))
    (hY := fun c s' => by
      iintro ⟨-, HU, HSI⟩
      unfold Pipeline.unscopedRest
      imodintro
      iapply (pointsTo_read_all (Pipeline.restRefs sig spec0) (fun b => (c.tc : Thread nD τ).loc b) (fun b => tailV m c ((dats 0 c).arrAt 5 cfg0.N) (Proc.devRef .tc b)) s')
      isplitl [HU] <;> iassumption)
    (hQ := fun s h c => ⟨(h c).1, (h c).2.2 main_v3 (Pipeline.mem_restRefs_of main_v3 rfl (by decide))⟩)

end Cert.KernelIdeal.Fr

end
-- ==== Proof.KernelIdeal.Frame.lean ====
/-
  The frame of this program and the run its value is read from: the launch (two readers of the one array x) applied
  to the kernel's proof data (what the two scratch arrays and the output window hold after each of the 32 grid
  points).  Every weakly fair execution terminates without a fault; the four argument arrays end as they began,
  since every window on them is an input window; the result is the three layout operations applied to the output
  array as the write-backs leave it.
-/
import proofs.«103444_j37357625541231_1_alg».proof.Proof.KernelIdeal.FrBody
import proofs.«103444_j37357625541231_1_alg».proof.Proof.KernelIdeal.FrLaunch

set_option maxRecDepth 16384

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- The run: every array of the pipeline at what the write-backs leave in it, the result at the three layout
    operations of the output array. -/
theorem run_main : θ_run defs (onTc (τ := τ) (main (F := F))) ⟨m, fun _ => 0, ρ⟩ (fun r => ∀ c : Dev nD,
      (∀ w, r.2.mem (((cfg0).spec w).arr.view.loc (c : Thread nD τ)) = (dats m 0 c).arrAt w cfg0.N)
      ∧ r.2.mem ((c : Thread nD τ).loc main_v3) = tailV m c ((dats m 0 c).arrAt 5 cfg0.N) (Proc.devRef .tc main_v3)) :=
  run_of m ρ (dats m) (q_eq m) (A_eq m) (fun _ _ => rfl) (fun c => (body_obligation m c).loose) (hin m) (hout m)

/-- An input window's array ends at its entry contents, which are the launch contents. -/
theorem kept (c : Dev nD) (w : Fin cfg0.W) (hw : (cfg0.win w).isOut = false) :
    (dats m 0 c).arrAt w cfg0.N = V m c (Pipeline.arrRef spec0 w) :=
  ((dats m 0 c).arrAt_in w hw _).trans (A_eq m c w)

/-- The frame: the program runs to the end, faults nowhere, and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (kept m c 0 rfl), ((h c).1 2).trans (kept m c 2 rfl), ((h c).1 3).trans (kept m c 3 rfl), ((h c).1 4).trans (kept m c 4 rfl)⟩)
    (run_main m ρ)

end Cert.KernelIdeal.Fr

end
-- ==== Proof.SpecTile.lean ====
/-
  The last step both programs share: the [8, 2048, 64] attention output is viewed as [1, 8, 1, 2048, 1, 64], its
  axis of size one at position 4 is repeated 16 times, and the result is viewed as [8, 2048, 1024] — so that the 64
  head coordinates appear 16 times in a row along the last axis.  The three shape relations are taken as arguments, so
  that either program can supply its own evidence for them.
-/
import Idealize.ShloMosaic.PureOps.Ideal
import Idealize.ShloMosaic.Lib.ValueIdx

noncomputable section

namespace Attn

open Idealize.ShloMosaic

/-- View as [1, 8, 1, 2048, 1, 64], repeat 16 times along axis 4, view as [8, 2048, 1024]. -/
def tile
    (h1 : (⟨3, ![8, 2048, 64]⟩ : Shape).ShapeCasts (⟨6, ![1, 8, 1, 2048, 1, 64]⟩ : Shape))
    (h2 : (⟨6, ![1, 8, 1, 2048, 1, 64]⟩ : Shape).BroadcastsInDim (⟨6, ![1, 8, 1, 2048, 16, 64]⟩ : Shape)
      (![0, 1, 2, 3, 4, 5] : Fin 6 → Fin (⟨6, ![1, 8, 1, 2048, 16, 64]⟩ : Shape).rank))
    (h3 : (⟨6, ![1, 8, 1, 2048, 16, 64]⟩ : Shape).ShapeCasts (⟨3, ![8, 2048, 1024]⟩ : Shape))
    (v : (⟨3, ![8, 2048, 64]⟩ : Shape).Idx → EReal) : (⟨3, ![8, 2048, 1024]⟩ : Shape).Idx → EReal :=
  shapeCast (⟨3, ![8, 2048, 1024]⟩ : Shape)
    (broadcastInDim (⟨6, ![1, 8, 1, 2048, 16, 64]⟩ : Shape) ![0, 1, 2, 3, 4, 5] h2
      (shapeCast (⟨6, ![1, 8, 1, 2048, 1, 64]⟩ : Shape) v h1)) h3

end Attn

end
-- ==== Proof.KernelIdeal.ValGlue1.lean ====
/-
  The three layout operations that follow the kernel region: whatever the region leaves in its output array, the
  program's result array ends at that array viewed as [1, 8, 1, 2048, 1, 64], repeated 16 times along axis 4, and viewed
  as [8, 2048, 1024] — the shared tail of the specification.
-/
import proofs.«103444_j37357625541231_1_alg».proof.Proof.KernelIdeal.FrBase
import proofs.«103444_j37357625541231_1_alg».proof.Proof.SpecTile
import Idealize.ShloMosaic.Lib.StableHlo.Run

noncomputable section

namespace Cert.KernelIdeal.Val

open Cert.KernelIdeal Cert.KernelIdeal.Gen
open Idealize.ShloMosaic Idealize.ShloMosaic.TcCoe Idealize.SL.Sem Idealize.ShloMosaic.StableHlo

/-- After the three closing operations, the result array is the tail of the region's output array. -/
theorem tail_eq (m : (ℓ : Loc nD τ sig) → Buf (Elt Ideal) ℓ) (c : Dev nD)
    (o : Buf (Elt Ideal) ((c : Thread nD τ).loc main_v0)) :
    StableHlo.after (hostOps1 (F := Ideal)) (Function.update (Fr.V0 m c) (Proc.devRef .tc main_v0) o) (Proc.devRef .tc main_v3)
      = Attn.tile Cert.KernelIdeal.Gen.shapeCasts_S8x2048x64_S1x8x1x2048x1x64
          Cert.KernelIdeal.Gen.bcast_S1x8x1x2048x1x64_S1x8x1x2048x16x64_0_1_2_3_4_5
          Cert.KernelIdeal.Gen.shapeCasts_S1x8x1x2048x16x64_S8x2048x1024 o := by
  dsimp only [hostOps1]
  after_results
  rw [Function.update_self]
  rfl

end Cert.KernelIdeal.Val

end
-- ==== Proof.KernelIdeal.ValGlue2.lean ====
/-
  The input windows' blocks read at an index.  Grid point t is key tile t mod 4 of batch t div 4.  The first window's
  block is the whole [2048, 1024] slab of that batch; the second window's block is the stretch of 512 rows of that slab
  starting at row 512 · (t mod 4); the three matrix windows' blocks are the whole matrices.
-/
import proofs.«103444_j37357625541231_1_alg».proof.Proof.KernelIdeal.FrBase
import Idealize.ShloMosaic.Lib.Pipeline.Value
import Idealize.ShloMosaic.Lib.ValueIdx

noncomputable section

namespace Cert.KernelIdeal.Val

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- There are 32 grid points. -/
theorem lt32 (t : Fin cfg0.N) : t.val < 32 := lt_of_lt_of_eq t.isLt N_0

/-- The batch of a grid point. -/
abbrev batchOf (t : Fin cfg0.N) : Fin 8 := ⟨t.val / 4, by have := lt32 t; omega⟩
/-- Row r of a point's key tile, as a row of the batch's slab. -/
abbrev keyRow (t : Fin cfg0.N) (r : Fin 512) : Fin 2048 :=
  ⟨(t.val % 4) * 512 + r.val, by have := r.isLt; have := Nat.mod_lt t.val (show 0 < 4 by decide); omega⟩

/-- The printed index maps over the grid: the block index of every window at every point. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val / 4 ∧ win0_5.index t (1 : Fin 3) = 0 ∧ win0_5.index t (2 : Fin 3) = 0 :=
  (by decide +kernel : ∀ t : Fin grid0.N, _)

/-- The first window's block at point t is the slab of batch t div 4. -/
theorem iblk0_apply (c : Dev nD) (t : Fin cfg0.N) (y : S1x2048x1024.Idx) (k : S8x2048x1024.Idx)
    (hk0 : (k 0).val = t.val / 4) (hk1 : (k 1).val = (y 1).val) (hk2 : (k 2).val = (y 2).val) :
    (Fr.iblk m c 0 t : Vec F S1x2048x1024 .f32) y = (Fr.V m c main_arg0 : S8x2048x1024.Idx → Elt F .f32) k := by
  obtain ⟨e0, e1, e2, -⟩ := idx_facts t
  unfold Fr.iblk
  rw [View.read_apply]
  show Fr.V m c main_arg0 _ = Fr.V m c main_arg0 _
  congr 1
  funext a
  apply Fin.ext
  have h0 : (y 0).val < 1 := (y 0).isLt
  match a with
  | ⟨0, _⟩ => show win0_0.index t (0 : Fin 3) * 1 + 1 * (y 0).val = (k 0).val; omega
  | ⟨1, _⟩ => show win0_0.index t (1 : Fin 3) * 2048 + 1 * (y 1).val = (k 1).val; omega
  | ⟨2, _⟩ => show win0_0.index t (2 : Fin 3) * 1024 + 1 * (y 2).val = (k 2).val; omega

/-- The second window's block at point t is key tile t mod 4 of the slab of batch t div 4. -/
theorem iblk1_apply (c : Dev nD) (t : Fin cfg0.N) (y : S1x512x1024.Idx) (k : S8x2048x1024.Idx)
    (hk0 : (k 0).val = t.val / 4) (hk1 : (k 1).val = (t.val % 4) * 512 + (y 1).val) (hk2 : (k 2).val = (y 2).val) :
    (Fr.iblk m c 1 t : Vec F S1x512x1024 .f32) y = (Fr.V m c main_arg0 : S8x2048x1024.Idx → Elt F .f32) k := by
  obtain ⟨-, -, -, e0, e1, e2, -⟩ := idx_facts t
  unfold Fr.iblk
  rw [View.read_apply]
  show Fr.V m c main_arg0 _ = Fr.V m c main_arg0 _
  congr 1
  funext a
  apply Fin.ext
  have h0 : (y 0).val < 1 := (y 0).isLt
  match a with
  | ⟨0, _⟩ => show win0_1.index t (0 : Fin 3) * 1 + 1 * (y 0).val = (k 0).val; omega
  | ⟨1, _⟩ => show win0_1.index t (1 : Fin 3) * 512 + 1 * (y 1).val = (k 1).val; omega
  | ⟨2, _⟩ => show win0_1.index t (2 : Fin 3) * 1024 + 1 * (y 2).val = (k 2).val; omega

/-- The query matrix window's block is the whole matrix. -/
theorem iblk2_apply (c : Dev nD) (t : Fin cfg0.N) (y : S64x1024.Idx) :
    (Fr.iblk m c 2 t : Vec F S64x1024 .f32) y = (Fr.V m c main_arg1 : S64x1024.Idx → Elt F .f32) y := by
  obtain ⟨-, -, -, -, -, -, e0, e1, -⟩ := idx_facts t
  unfold Fr.iblk
  rw [View.read_apply]
  show Fr.V m c main_arg1 _ = Fr.V m c main_arg1 _
  congr 1
  funext a
  apply Fin.ext
  match a with
  | ⟨0, _⟩ => show win0_2.index t (0 : Fin 2) * 64 + 1 * (y 0).val = (y 0).val; omega
  | ⟨1, _⟩ => show win0_2.index t (1 : Fin 2) * 1024 + 1 * (y 1).val = (y 1).val; omega

/-- The key matrix window's block is the whole matrix. -/
theorem iblk3_apply (c : Dev nD) (t : Fin cfg0.N) (y : S64x1024.Idx) :
    (Fr.iblk m c 3 t : Vec F S64x1024 .f32) y = (Fr.V m c main_arg2 : S64x1024.Idx → Elt F .f32) y := by
  obtain ⟨-, -, -, -, -, -, -, -, e0, e1, -⟩ := idx_facts t
  unfold Fr.iblk
  rw [View.read_apply]
  show Fr.V m c main_arg2 _ = Fr.V m c main_arg2 _
  congr 1
  funext a
  apply Fin.ext
  match a with
  | ⟨0, _⟩ => show win0_3.index t (0 : Fin 2) * 64 + 1 * (y 0).val = (y 0).val; omega
  | ⟨1, _⟩ => show win0_3.index t (1 : Fin 2) * 1024 + 1 * (y 1).val = (y 1).val; omega

/-- The value matrix window's block is the whole matrix. -/
theorem iblk4_apply (c : Dev nD) (t : Fin cfg0.N) (y : S64x1024.Idx) :
    (Fr.iblk m c 4 t : Vec F S64x1024 .f32) y = (Fr.V m c main_arg3 : S64x1024.Idx → Elt F .f32) y := by
  obtain ⟨-, -, -, -, -, -, -, -, -, -, e0, e1, -⟩ := idx_facts t
  unfold Fr.iblk
  rw [View.read_apply]
  show Fr.V m c main_arg3 _ = Fr.V m c main_arg3 _
  congr 1
  funext a
  apply Fin.ext
  match a with
  | ⟨0, _⟩ => show win0_4.index t (0 : Fin 2) * 64 + 1 * (y 0).val = (y 0).val; omega
  | ⟨1, _⟩ => show win0_4.index t (1 : Fin 2) * 1024 + 1 * (y 1).val = (y 1).val; omega

/-! ### The same by coordinates -/

theorem iblk0_ix (c : Dev nD) (t : Fin cfg0.N) (z : Fin 1) (s : Fin 2048) (e : Fin 1024) :
    (Fr.iblk m c 0 t : Vec F S1x2048x1024 .f32) (ix3 z s e)
      = (Fr.V m c main_arg0 : S8x2048x1024.Idx → Elt F .f32) (ix3 (batchOf t) s e) :=
  iblk0_apply m c t _ _ rfl rfl rfl

theorem iblk1_ix (c : Dev nD) (t : Fin cfg0.N) (z : Fin 1) (r : Fin 512) (e : Fin 1024) :
    (Fr.iblk m c 1 t : Vec F S1x512x1024 .f32) (ix3 z r e)
      = (Fr.V m c main_arg0 : S8x2048x1024.Idx → Elt F .f32) (ix3 (batchOf t) (keyRow t r) e) :=
  iblk1_apply m c t _ _ rfl rfl rfl

theorem iblk2_eq (c : Dev nD) (t : Fin cfg0.N) :
    (Fr.iblk m c 2 t : Vec F S64x1024 .f32) = (Fr.V m c main_arg1 : S64x1024.Idx → Elt F .f32) :=
  funext fun y => iblk2_apply m c t y
theorem iblk3_eq (c : Dev nD) (t : Fin cfg0.N) :
    (Fr.iblk m c 3 t : Vec F S64x1024 .f32) = (Fr.V m c main_arg2 : S64x1024.Idx → Elt F .f32) :=
  funext fun y => iblk3_apply m c t y
theorem iblk4_eq (c : Dev nD) (t : Fin cfg0.N) :
    (Fr.iblk m c 4 t : Vec F S64x1024 .f32) = (Fr.V m c main_arg3 : S64x1024.Idx → Elt F .f32) :=
  funext fun y => iblk4_apply m c t y

end Cert.KernelIdeal.Val

end
-- ==== Proof.KernelIdeal.ValGlue3.lean ====
/-
  From the output window's blocks to its array.  The output window's block at grid point t is the [2048, 64] slab of
  batch t div 4, and it is written back at the last key tile of each batch (t mod 4 = 3).  The eight written blocks tile
  the [8, 2048, 64] array: the slab of batch b is the block of point 4b + 3.  So if every written block is the
  corresponding block of one function G of the whole array, the array ends holding G.
-/
import proofs.«103444_j37357625541231_1_alg».proof.Proof.KernelIdeal.ValGlue2

noncomputable section

namespace Cert.KernelIdeal.Val

open Cert.KernelIdeal Cert.KernelIdeal.Gen
open Idealize.ShloMosaic Idealize.ShloMosaic.TcCoe Idealize.SL Idealize.SL.RA Idealize.SL.Sem Idealize.ShloMosaic.ValueIdx

variable {F : FTy → Type} [FloatOps F]

/-- An index of the output array is in point t's block iff each coordinate is in the block's range on its axis. -/
theorem mem_blk5 (t : Fin cfg0.N) (i : S8x2048x64.Idx) :
    i ∈ ((cfg0.win 5).blk t).view.set ↔ ∀ a : Fin 3, win0_5.index t a * S1x2048x64.size a ≤ (i a).val
      ∧ (i a).val < win0_5.index t a * S1x2048x64.size a + S1x2048x64.size a := by
  show i ∈ ((View.whole main_v0).slice (win0_5.rect t)).set ↔ _
  rw [View.set_slice_whole, Rect.mem_set_unit]
  exact Iff.rfl

/-- Every index of the output array lies in the block of a point at which the window is written back: the last key
    tile of the index's batch. -/
theorem cover5 (i : S8x2048x64.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 64 := (i 2).isLt
  have ht : 4 * (i 0).val + 3 < cfg0.N := by
    show 4 * (i 0).val + 3 < grid0.N
    rw [N_0]; omega
  refine ⟨⟨4 * (i 0).val + 3, ht⟩, (flush0_5 _).mpr (by show (4 * (i 0).val + 3) % 4 = 3; omega), ?_⟩
  rw [mem_blk5]
  obtain ⟨-, -, -, -, -, -, -, -, -, -, -, -, e0, e1, e2⟩ := idx_facts ⟨4 * (i 0).val + 3, ht⟩
  have e0' : win0_5.index ⟨4 * (i 0).val + 3, ht⟩ (0 : Fin 3) = (i 0).val := by
    rw [e0]; show (4 * (i 0).val + 3) / 4 = (i 0).val; omega
  intro a
  match a with
  | ⟨0, _⟩ =>
    show win0_5.index _ (0 : Fin 3) * 1 ≤ (i 0).val ∧ (i 0).val < win0_5.index _ (0 : Fin 3) * 1 + 1
    rw [e0']; omega
  | ⟨1, _⟩ =>
    show win0_5.index _ (1 : Fin 3) * 2048 ≤ (i 1).val ∧ (i 1).val < win0_5.index _ (1 : Fin 3) * 2048 + 2048
    rw [e1]; omega
  | ⟨2, _⟩ =>
    show win0_5.index _ (2 : Fin 3) * 64 ≤ (i 2).val ∧ (i 2).val < win0_5.index _ (2 : Fin 3) * 64 + 64
    rw [e2]; omega

/-- If every block written back is the corresponding block of G, the output array ends holding G. -/
theorem out_final {Ix : Type} [DecidableEq Ix] {Name : Type} [DecidableEq Name] {U : Type} [URA U] {Lvl : Type}
    (c : Dev nD) (dat : Pipeline.Dat τ (Elt F) Ix Name U Lvl cfg0 c)
    (G : Buf (Elt F) ((cfg0.win 5).arr.view.loc (c.tc : Thread nD τ)))
    (hG : ∀ t : Fin cfg0.N, t.val % 4 = 3 → dat.flushed 5 t = ((cfg0.win 5).blk t).view.read (Elt F) G) :
    dat.arrAt 5 cfg0.N = G :=
  dat.arrAt_eq_of_cover 5 G (fun t hf => hG t ((flush0_5 t).mp hf)) cover5

/-- The block of the output window at point t, read at an index: the slab of batch t div 4 of G. -/
theorem blk5_read_apply (t : Fin cfg0.N) (G : S8x2048x64.Idx → Elt F .f32) (y : S1x2048x64.Idx) (k : S8x2048x64.Idx)
    (hk0 : (k 0).val = t.val / 4) (hk1 : (k 1).val = (y 1).val) (hk2 : (k 2).val = (y 2).val) :
    (((cfg0.win 5).blk t).view.read (Elt F) G : Vec F S1x2048x64 .f32) y = G k := by
  obtain ⟨-, -, -, -, -, -, -, -, -, -, -, -, e0, e1, e2⟩ := idx_facts t
  rw [View.read_apply]
  show G _ = G _
  congr 1
  funext a
  apply Fin.ext
  have h0 : (y 0).val < 1 := (y 0).isLt
  match a with
  | ⟨0, _⟩ => show win0_5.index t (0 : Fin 3) * 1 + 1 * (y 0).val = (k 0).val; omega
  | ⟨1, _⟩ => show win0_5.index t (1 : Fin 3) * 2048 + 1 * (y 1).val = (k 1).val; omega
  | ⟨2, _⟩ => show win0_5.index t (2 : Fin 3) * 64 + 1 * (y 2).val = (k 2).val; omega

end Cert.KernelIdeal.Val

end
-- ==== Proof.KerMat.lean ====
/-
  The kernel's four matrix products read at an index, over the extended reals.

  Each product accumulates into the zero array, so its entry is a plain finite sum.  Three of them contract the
  second axis of both operands (a row of the left operand against a row of the right one); the fourth contracts the
  first axis of both (a column against a column).  The index each operand is read at is named by its coordinates.
-/
import proofs.«103444_j37357625541231_1_alg».proof.Proof.Gen.KernelIdeal.Skeleton
import Idealize.ShloMosaic.PureOps.Ideal.Laws
import Idealize.ShloMosaic.Lib.ValueIdx

noncomputable section

namespace KerMat

open Idealize.ShloMosaic Idealize.SL.Sem Idealize.ShloMosaic.ValueIdx Cert.KernelIdeal Cert.KernelIdeal.Gen

/-- A [2048, 1024] array times the transpose of a [64, 1024] one, into a zero accumulator: at (p, q) the sum over the
    1024 shared columns k of lhs (p, k) · rhs (q, k). -/
theorem mm_q (lhs : FVec Ideal S2048x1024 .bf16) (rhs : FVec Ideal S64x1024 .bf16) (p : Fin 2048) (q : Fin 64) :
    matmul dot_S2048x1024_S64x1024_S2048x64_1_1_0_0_n_n none lhs rhs (constant (F := Ideal) S2048x64 .f32 0x00000000#32) (ix2 p q)
      = ∑ k : Fin 1024, lhs (ix2 p k) * rhs (ix2 q k) := by
  simp only [matmul]
  rw [Ideal.matmul_constant_zero_apply, ← Equiv.sum_comp (contrEquiv1 dot_S2048x1024_S64x1024_S2048x64_1_1_0_0_n_n 1024 rfl rfl).symm]
  refine Finset.sum_congr rfl fun k _ => ?_
  have hk := contrEquiv1_symm_val dot_S2048x1024_S64x1024_S2048x64_1_1_0_0_n_n 1024 rfl rfl k
  have l0 : (dot_S2048x1024_S64x1024_S2048x64_1_1_0_0_n_n.lhsIdx (ix2 p q) ((contrEquiv1 dot_S2048x1024_S64x1024_S2048x64_1_1_0_0_n_n 1024 rfl rfl).symm k) 0).val = p.val := by
    unfold DotDims.lhsIdx
    rw [dif_neg (show ¬(0 : Fin S2048x1024.rank) ∈ dot_S2048x1024_S64x1024_S2048x64_1_1_0_0_n_n.lhsBatch by decide), dif_pos (show (0 : Fin S2048x1024.rank) ∈ dot_S2048x1024_S64x1024_S2048x64_1_1_0_0_n_n.lhsNonContracting by decide)]
    rfl
  have r0 : (dot_S2048x1024_S64x1024_S2048x64_1_1_0_0_n_n.rhsIdx (ix2 p q) ((contrEquiv1 dot_S2048x1024_S64x1024_S2048x64_1_1_0_0_n_n 1024 rfl rfl).symm k) 0).val = q.val := by
    unfold DotDims.rhsIdx
    rw [dif_neg (show ¬(0 : Fin S64x1024.rank) ∈ dot_S2048x1024_S64x1024_S2048x64_1_1_0_0_n_n.rhsBatch by decide), dif_pos (show (0 : Fin S64x1024.rank) ∈ dot_S2048x1024_S64x1024_S2048x64_1_1_0_0_n_n.rhsNonContracting by decide)]
    rfl
  have el : dot_S2048x1024_S64x1024_S2048x64_1_1_0_0_n_n.lhsIdx (ix2 p q) ((contrEquiv1 dot_S2048x1024_S64x1024_S2048x64_1_1_0_0_n_n 1024 rfl rfl).symm k) = ix2 p k := funext fun a => Fin.ext (by
    match a with
    | ⟨0, _⟩ => exact l0
    | ⟨1, _⟩ => exact (dot_S2048x1024_S64x1024_S2048x64_1_1_0_0_n_n.lhsIdx_val_of_single rfl _ _).trans hk)
  have er : dot_S2048x1024_S64x1024_S2048x64_1_1_0_0_n_n.rhsIdx (ix2 p q) ((contrEquiv1 dot_S2048x1024_S64x1024_S2048x64_1_1_0_0_n_n 1024 rfl rfl).symm k) = ix2 q k := funext fun a => Fin.ext (by
    match a with
    | ⟨0, _⟩ => exact r0
    | ⟨1, _⟩ => exact (dot_S2048x1024_S64x1024_S2048x64_1_1_0_0_n_n.rhsIdx_val_of_single rfl _ _).trans hk)
  rw [el, er]

/-- A [512, 1024] array times the transpose of a [64, 1024] one, into a zero accumulator: at (p, q) the sum over the
    1024 shared columns k of lhs (p, k) · rhs (q, k). -/
theorem mm_kv (lhs : FVec Ideal S512x1024 .bf16) (rhs : FVec Ideal S64x1024 .bf16) (p : Fin 512) (q : Fin 64) :
    matmul dot_S512x1024_S64x1024_S512x64_1_1_0_0_n_n none lhs rhs (constant (F := Ideal) S512x64 .f32 0x00000000#32) (ix2 p q)
      = ∑ k : Fin 1024, lhs (ix2 p k) * rhs (ix2 q k) := by
  simp only [matmul]
  rw [Ideal.matmul_constant_zero_apply, ← Equiv.sum_comp (contrEquiv1 dot_S512x1024_S64x1024_S512x64_1_1_0_0_n_n 1024 rfl rfl).symm]
  refine Finset.sum_congr rfl fun k _ => ?_
  have hk := contrEquiv1_symm_val dot_S512x1024_S64x1024_S512x64_1_1_0_0_n_n 1024 rfl rfl k
  have l0 : (dot_S512x1024_S64x1024_S512x64_1_1_0_0_n_n.lhsIdx (ix2 p q) ((contrEquiv1 dot_S512x1024_S64x1024_S512x64_1_1_0_0_n_n 1024 rfl rfl).symm k) 0).val = p.val := by
    unfold DotDims.lhsIdx
    rw [dif_neg (show ¬(0 : Fin S512x1024.rank) ∈ dot_S512x1024_S64x1024_S512x64_1_1_0_0_n_n.lhsBatch by decide), dif_pos (show (0 : Fin S512x1024.rank) ∈ dot_S512x1024_S64x1024_S512x64_1_1_0_0_n_n.lhsNonContracting by decide)]
    rfl
  have r0 : (dot_S512x1024_S64x1024_S512x64_1_1_0_0_n_n.rhsIdx (ix2 p q) ((contrEquiv1 dot_S512x1024_S64x1024_S512x64_1_1_0_0_n_n 1024 rfl rfl).symm k) 0).val = q.val := by
    unfold DotDims.rhsIdx
    rw [dif_neg (show ¬(0 : Fin S64x1024.rank) ∈ dot_S512x1024_S64x1024_S512x64_1_1_0_0_n_n.rhsBatch by decide), dif_pos (show (0 : Fin S64x1024.rank) ∈ dot_S512x1024_S64x1024_S512x64_1_1_0_0_n_n.rhsNonContracting by decide)]
    rfl
  have el : dot_S512x1024_S64x1024_S512x64_1_1_0_0_n_n.lhsIdx (ix2 p q) ((contrEquiv1 dot_S512x1024_S64x1024_S512x64_1_1_0_0_n_n 1024 rfl rfl).symm k) = ix2 p k := funext fun a => Fin.ext (by
    match a with
    | ⟨0, _⟩ => exact l0
    | ⟨1, _⟩ => exact (dot_S512x1024_S64x1024_S512x64_1_1_0_0_n_n.lhsIdx_val_of_single rfl _ _).trans hk)
  have er : dot_S512x1024_S64x1024_S512x64_1_1_0_0_n_n.rhsIdx (ix2 p q) ((contrEquiv1 dot_S512x1024_S64x1024_S512x64_1_1_0_0_n_n 1024 rfl rfl).symm k) = ix2 q k := funext fun a => Fin.ext (by
    match a with
    | ⟨0, _⟩ => exact r0
    | ⟨1, _⟩ => exact (dot_S512x1024_S64x1024_S512x64_1_1_0_0_n_n.rhsIdx_val_of_single rfl _ _).trans hk)
  rw [el, er]

/-- A [512, 64] array times the transpose of a [2048, 64] one, into a zero accumulator: at (p, q) the sum over the 64
    shared columns k of lhs (p, k) · rhs (q, k). -/
theorem mm_st (lhs : FVec Ideal S512x64 .bf16) (rhs : FVec Ideal S2048x64 .bf16) (p : Fin 512) (q : Fin 2048) :
    matmul dot_S512x64_S2048x64_S512x2048_1_1_0_0_n_n none lhs rhs (constant (F := Ideal) S512x2048 .f32 0x00000000#32) (ix2 p q)
      = ∑ k : Fin 64, lhs (ix2 p k) * rhs (ix2 q k) := by
  simp only [matmul]
  rw [Ideal.matmul_constant_zero_apply, ← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have l0 : (dot_S512x64_S2048x64_S512x2048_1_1_0_0_n_n.lhsIdx (ix2 p q) ((contrEquiv1 dot_S512x64_S2048x64_S512x2048_1_1_0_0_n_n 64 rfl rfl).symm k) 0).val = p.val := by
    unfold DotDims.lhsIdx
    rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
    rfl
  have r0 : (dot_S512x64_S2048x64_S512x2048_1_1_0_0_n_n.rhsIdx (ix2 p q) ((contrEquiv1 dot_S512x64_S2048x64_S512x2048_1_1_0_0_n_n 64 rfl rfl).symm k) 0).val = q.val := by
    unfold DotDims.rhsIdx
    rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
    rfl
  have el : dot_S512x64_S2048x64_S512x2048_1_1_0_0_n_n.lhsIdx (ix2 p q) ((contrEquiv1 dot_S512x64_S2048x64_S512x2048_1_1_0_0_n_n 64 rfl rfl).symm k) = ix2 p k := funext fun a => Fin.ext (by
    match a with
    | ⟨0, _⟩ => exact l0
    | ⟨1, _⟩ => exact (dot_S512x64_S2048x64_S512x2048_1_1_0_0_n_n.lhsIdx_val_of_single rfl _ _).trans hk)
  have er : dot_S512x64_S2048x64_S512x2048_1_1_0_0_n_n.rhsIdx (ix2 p q) ((contrEquiv1 dot_S512x64_S2048x64_S512x2048_1_1_0_0_n_n 64 rfl rfl).symm k) = ix2 q k := funext fun a => Fin.ext (by
    match a with
    | ⟨0, _⟩ => exact r0
    | ⟨1, _⟩ => exact (dot_S512x64_S2048x64_S512x2048_1_1_0_0_n_n.rhsIdx_val_of_single rfl _ _).trans hk)
  rw [el, er]

/-- The product contracting the first axis of both operands, [512, 2048] and [512, 64], into a zero accumulator: at
    (p, q) the sum over the 512 shared rows k of lhs (k, p) · rhs (k, q). -/
theorem mm_rows (lhs : FVec Ideal S512x2048 .bf16) (rhs : FVec Ideal S512x64 .bf16) (p : Fin 2048) (q : Fin 64) :
    matmul dot_S512x2048_S512x64_S2048x64_0_0_1_1_n_n none lhs rhs (constant (F := Ideal) S2048x64 .f32 0x00000000#32) (ix2 p q)
      = ∑ k : Fin 512, lhs (ix2 k p) * rhs (ix2 k q) := by
  simp only [matmul]
  rw [Ideal.matmul_constant_zero_apply, ← Equiv.sum_comp (contrEquiv1 dot_S512x2048_S512x64_S2048x64_0_0_1_1_n_n 512 rfl rfl).symm]
  refine Finset.sum_congr rfl fun k _ => ?_
  have hk := contrEquiv1_symm_val dot_S512x2048_S512x64_S2048x64_0_0_1_1_n_n 512 rfl rfl k
  have l1 : (dot_S512x2048_S512x64_S2048x64_0_0_1_1_n_n.lhsIdx (ix2 p q) ((contrEquiv1 dot_S512x2048_S512x64_S2048x64_0_0_1_1_n_n 512 rfl rfl).symm k) 1).val = p.val := by
    unfold DotDims.lhsIdx
    rw [dif_neg (show ¬(1 : Fin S512x2048.rank) ∈ dot_S512x2048_S512x64_S2048x64_0_0_1_1_n_n.lhsBatch by decide), dif_pos (show (1 : Fin S512x2048.rank) ∈ dot_S512x2048_S512x64_S2048x64_0_0_1_1_n_n.lhsNonContracting by decide)]
    rfl
  have r1 : (dot_S512x2048_S512x64_S2048x64_0_0_1_1_n_n.rhsIdx (ix2 p q) ((contrEquiv1 dot_S512x2048_S512x64_S2048x64_0_0_1_1_n_n 512 rfl rfl).symm k) 1).val = q.val := by
    unfold DotDims.rhsIdx
    rw [dif_neg (show ¬(1 : Fin S512x64.rank) ∈ dot_S512x2048_S512x64_S2048x64_0_0_1_1_n_n.rhsBatch by decide), dif_pos (show (1 : Fin S512x64.rank) ∈ dot_S512x2048_S512x64_S2048x64_0_0_1_1_n_n.rhsNonContracting by decide)]
    rfl
  have el : dot_S512x2048_S512x64_S2048x64_0_0_1_1_n_n.lhsIdx (ix2 p q) ((contrEquiv1 dot_S512x2048_S512x64_S2048x64_0_0_1_1_n_n 512 rfl rfl).symm k) = ix2 k p := funext fun a => Fin.ext (by
    match a with
    | ⟨0, _⟩ => exact (dot_S512x2048_S512x64_S2048x64_0_0_1_1_n_n.lhsIdx_val_of_single rfl _ _).trans hk
    | ⟨1, _⟩ => exact l1)
  have er : dot_S512x2048_S512x64_S2048x64_0_0_1_1_n_n.rhsIdx (ix2 p q) ((contrEquiv1 dot_S512x2048_S512x64_S2048x64_0_0_1_1_n_n 512 rfl rfl).symm k) = ix2 k q := funext fun a => Fin.ext (by
    match a with
    | ⟨0, _⟩ => exact (dot_S512x2048_S512x64_S2048x64_0_0_1_1_n_n.rhsIdx_val_of_single rfl _ _).trans hk
    | ⟨1, _⟩ => exact r1)
  rw [el, er]

end KerMat

end
-- ==== Proof.Spec.lean ====
/-
  The function both programs compute, over the extended reals, entry by entry.

  For batch b, every row s of x is projected three times:  q = x·Wqᵀ, k = x·Wkᵀ, v = x·Wvᵀ  (sums over the 1024
  embedding coordinates).  The score of key k against query i is the inner product of their projections over the 64
  head coordinates.  The softmax is taken over the QUERIES for each fixed key: from every score of key k the largest
  score of that key is subtracted, the exponentials are divided by their sum over the queries.  The output at query i
  and head coordinate d is the sum over all 2048 keys of that weight times the key's value projection.  Finally the
  64 head coordinates are repeated 16 times along the last axis.
-/
import Idealize.ShloMosaic.PureOps.Ideal
import Idealize.ShloMosaic.Lib.ValueIdx

noncomputable section

namespace Attn

open Idealize.ShloMosaic Idealize.ShloMosaic.ValueIdx

/-- The batch of sequences, [8, 2048, 1024], and a projection matrix, [64, 1024], as extended reals. -/
abbrev Xs := (⟨3, ![8, 2048, 1024]⟩ : Shape).Idx → EReal
abbrev Ws := (⟨2, ![64, 1024]⟩ : Shape).Idx → EReal

/-- The word of minus infinity, kept as its pattern: both programs start their maxima from it. -/
abbrev negInf : EReal := Ideal.ofBits .f32 0xFF800000#32

/-- Row s of batch b projected on row d of the matrix w. -/
def proj (x : Xs) (w : Ws) (b : Fin 8) (s : Fin 2048) (d : Fin 64) : EReal :=
  ∑ e : Fin 1024, x (ix3 b s e) * w (ix2 d e)

/-- The score of key k against query i: the key's projection times the query's, summed over the head. -/
def score (x : Xs) (wq wk : Ws) (b : Fin 8) (k i : Fin 2048) : EReal :=
  ∑ d : Fin 64, proj x wk b k d * proj x wq b i d

/-- The largest score of key k over all queries, started from minus infinity (and compared with it once more, as
    both programs do). -/
def top (x : Xs) (wq wk : Ws) (b : Fin 8) (k : Fin 2048) : EReal :=
  max negInf ((Finset.univ : Finset (Fin 2048)).fold max negInf fun i => score x wq wk b k i)

/-- The exponential of a score less its key's largest. -/
def ex (x : Xs) (wq wk : Ws) (b : Fin 8) (k i : Fin 2048) : EReal :=
  Ideal.exp (score x wq wk b k i - top x wq wk b k)

/-- The sum of a key's exponentials over the queries. -/
def den (x : Xs) (wq wk : Ws) (b : Fin 8) (k : Fin 2048) : EReal :=
  ∑ i : Fin 2048, ex x wq wk b k i

/-- The softmax weight of query i for key k (normalised over the queries). -/
def wgt (x : Xs) (wq wk : Ws) (b : Fin 8) (k i : Fin 2048) : EReal :=
  Ideal.div (ex x wq wk b k i) (den x wq wk b k)

/-- The attention output before the heads are repeated, [8, 2048, 64]: at query i, the weighted sum of the keys'
    value projections. -/
def attn (x : Xs) (wq wk wv : Ws) : (⟨3, ![8, 2048, 64]⟩ : Shape).Idx → EReal := fun j =>
  ∑ k : Fin 2048, wgt x wq wk (j 0) k (j 1) * proj x wv (j 0) k (j 2)

/-- The same sum taken key tile by key tile: four stretches of 512 keys, added in order onto zero — the order in
    which the kernel accumulates. -/
def attnTiled (x : Xs) (wq wk wv : Ws) : (⟨3, ![8, 2048, 64]⟩ : Shape).Idx → EReal := fun j =>
  (((0 + ∑ k : Fin 512, wgt x wq wk (j 0) ⟨0 * 512 + k.val, by omega⟩ (j 1) * proj x wv (j 0) ⟨0 * 512 + k.val, by omega⟩ (j 2))
      + ∑ k : Fin 512, wgt x wq wk (j 0) ⟨1 * 512 + k.val, by omega⟩ (j 1) * proj x wv (j 0) ⟨1 * 512 + k.val, by omega⟩ (j 2))
      + ∑ k : Fin 512, wgt x wq wk (j 0) ⟨2 * 512 + k.val, by omega⟩ (j 1) * proj x wv (j 0) ⟨2 * 512 + k.val, by omega⟩ (j 2))
      + ∑ k : Fin 512, wgt x wq wk (j 0) ⟨3 * 512 + k.val, by omega⟩ (j 1) * proj x wv (j 0) ⟨3 * 512 + k.val, by omega⟩ (j 2)

end Attn

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.KerPay.lean ====
/-
  The kernel's arithmetic over the extended reals, read entry by entry.

  Four payloads.  The query projection of a whole batch block: q (s, d) = ∑ e, x (0, s, e) · wq (d, e).  The zero
  array.  One key tile's step: for the 512 keys of the tile, their key and value projections; the scores of each key
  against all 2048 queries, st (k, i) = ∑ d', kproj (k, d') · q (i, d'); for each key the largest of its scores
  (started from minus infinity and compared with it once more), the exponentials of the scores less that largest,
  their sum over the queries, the quotient; and onto the accumulator at (i, d) the sum over the tile's keys of that
  quotient times the key's value projection.  Last, the cast that puts a unit axis in front of the result.
-/
import proofs.«103444_j37357625541231_1_alg».proof.Proof.KerMat
import proofs.«103444_j37357625541231_1_alg».proof.Proof.Spec
import proofs.«103444_j37357625541231_1_alg».proof.Proof.LibColumnLayout
import Idealize.ShloMosaic.Lib.ValueLayout
import Idealize.ShloMosaic.Lib.Pipeline.Value

noncomputable section

namespace KerPay

open Idealize.ShloMosaic Idealize.SL.Sem Idealize.ShloMosaic.ValueIdx Cert.KernelIdeal Cert.KernelIdeal.Gen

/-! ## Reductions over the second axis of an [a, b] array -/

/-- In an [a, b] array reduced over its second axis, the reduced index `p` with coordinate `j` put back is (p, j). -/
theorem lift_cols {a b : ℕ} (h : (⟨2, ![a, b]⟩ : Shape).Reduces [1] (⟨1, ![a]⟩ : Shape)) (p : Fin a)
    (j : Fin ((⟨2, ![a, b]⟩ : Shape).size 1)) : h.lift (ix1 p) j = ix2 p (⟨j.val, j.isLt⟩ : Fin b) := by
  funext d; apply Fin.ext
  fin_cases d <;> rfl

/-- A maximum-reduction of an [a, b] array over its second axis, at row `p`: the fold of max from the accumulator's
    value over that row's entries. -/
theorem max_cols {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction .maximumf [1] (⟨1, ![a]⟩ : Shape) src acc h hφ hacc (ix1 p)
      = (Finset.univ : Finset (Fin b)).fold max (Ideal.ofBits φ acc) fun j => src (ix2 p j) := by
  refine (Ideal.multiReduction_maximumf_single src acc h hφ hacc (ix1 p)).trans ?_
  refine congrArg (fun f => Finset.fold max (Ideal.ofBits φ acc) f (Finset.univ : Finset (Fin b))) ?_
  funext j
  exact congrArg src (lift_cols h p j)

/-- A sum-reduction of an [a, b] array over its second axis, at row `p`: the sum of that row's entries. -/
theorem add_cols {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction .add [1] (⟨1, ![a]⟩ : Shape) src acc h hφ hacc (ix1 p) = ∑ j : Fin b, src (ix2 p j) := by
  refine (Ideal.multiReduction_add_single src acc h hφ hacc (ix1 p)).trans ?_
  refine Finset.sum_congr rfl fun j _ => ?_
  exact congrArg src (lift_cols h p j)

/-! ## The query projection, the zero array, the final cast -/

/-- The query projection of the batch block at (s, d): row s of the block against row d of the matrix. -/
theorem pay2_apply (xb : Vec Ideal S1x2048x1024 .f32) (wq : Vec Ideal S64x1024 .f32) (s : Fin 2048) (d : Fin 64) :
    k0_pay2 (F := Ideal) xb wq (ix2 s d) = ∑ e : Fin 1024, xb (ix3 0 s e) * wq (ix2 d e) := by
  unfold k0_pay2
  simp only [shapeCast_self]
  rw [KerMat.mm_q]
  refine Finset.sum_congr rfl fun e _ => ?_
  rw [truncf_apply, truncf_apply, shapeCast_1ab_ab_apply]

/-- The zero array is zero everywhere. -/
theorem pay3_apply (j : S2048x64.Idx) : k0_pay3 (F := Ideal) j = 0 := by
  unfold k0_pay3
  simp only [shapeCast_self]
  exact Ideal.ofBits_zero_f32

/-- The cast that puts a unit axis in front reads the same entry. -/
theorem pay1_apply (v : Vec Ideal S2048x64 .f32) (i : Fin 2048) (d : Fin 64) :
    k0_pay1 (F := Ideal) v (ix3 0 i d) = v (ix2 i d) := by
  unfold k0_pay1
  exact shapeCast_ab_1ab_apply v _ 0 i d

/-! ## One key tile's step -/

/-- Row k of a tile projected on row d of a matrix. -/
def kproj (xt : Vec Ideal S1x512x1024 .f32) (w : Vec Ideal S64x1024 .f32) (k : Fin 512) (d : Fin 64) : EReal :=
  ∑ e : Fin 1024, xt (ix3 0 k e) * w (ix2 d e)

/-- The score of key k of the tile against query i: the key's projection times the stored query projection, summed
    over the head. -/
def st (xt : Vec Ideal S1x512x1024 .f32) (wk : Vec Ideal S64x1024 .f32) (q : Vec Ideal S2048x64 .f32)
    (k : Fin 512) (i : Fin 2048) : EReal :=
  ∑ d' : Fin 64, kproj xt wk k d' * q (ix2 i d')

/-- The exponential of a score less its key's largest (the fold from minus infinity, compared with it once more). -/
def E (xt : Vec Ideal S1x512x1024 .f32) (wk : Vec Ideal S64x1024 .f32) (q : Vec Ideal S2048x64 .f32)
    (k : Fin 512) (i : Fin 2048) : EReal :=
  Ideal.exp (st xt wk q k i
    - max Attn.negInf ((Finset.univ : Finset (Fin 2048)).fold max Attn.negInf fun i' => st xt wk q k i'))

/-- A tile's projection as an array: the tile without its unit axis times the matrix's transpose. -/
def projV (xt : Vec Ideal S1x512x1024 .f32) (w : Vec Ideal S64x1024 .f32) : FVec Ideal S512x64 .f32 :=
  matmul dot_S512x1024_S64x1024_S512x64_1_1_0_0_n_n none
    (truncf .bf16 (shapeCast S512x1024 xt shapeCasts_S1x512x1024_S512x1024) bitsLt_bf16_f32)
    (truncf .bf16 w bitsLt_bf16_f32) (constant S512x64 .f32 0x00000000#32)

theorem projV_apply (xt : Vec Ideal S1x512x1024 .f32) (w : Vec Ideal S64x1024 .f32) (k : Fin 512) (d : Fin 64) :
    projV xt w (ix2 k d) = kproj xt w k d := by
  unfold projV kproj
  rw [KerMat.mm_kv]
  refine Finset.sum_congr rfl fun e _ => ?_
  rw [truncf_apply, truncf_apply, shapeCast_1ab_ab_apply]

/-- The tile's scores as an array, [512, 2048]: key projections times the transpose of the query projections. -/
def scoreV (xt : Vec Ideal S1x512x1024 .f32) (wk : Vec Ideal S64x1024 .f32) (q : Vec Ideal S2048x64 .f32) :
    FVec Ideal S512x2048 .f32 :=
  matmul dot_S512x64_S2048x64_S512x2048_1_1_0_0_n_n none
    (truncf .bf16 (projV xt wk) bitsLt_bf16_f32) (truncf .bf16 q bitsLt_bf16_f32)
    (constant S512x2048 .f32 0x00000000#32)

theorem scoreV_apply (xt : Vec Ideal S1x512x1024 .f32) (wk : Vec Ideal S64x1024 .f32) (q : Vec Ideal S2048x64 .f32)
    (k : Fin 512) (i : Fin 2048) : scoreV xt wk q (ix2 k i) = st xt wk q k i := by
  unfold scoreV st
  rw [KerMat.mm_st]
  refine Finset.sum_congr rfl fun d' _ => ?_
  rw [truncf_apply, truncf_apply, projV_apply]

/-- Each row's largest entry: the maximum-reduction from minus infinity, compared with minus infinity once more. -/
def topV (S : FVec Ideal S512x2048 .f32) : FVec Ideal S512 .f32 :=
  maximumf (broadcast S512 (Scalar.ofBits .f32 0xFF800000#32))
    (multiReduction .maximumf [1] S512 S 0xFF800000#32 reduces_S512x2048_S512 (.inl rfl) rfl)

theorem topV_apply (S : FVec Ideal S512x2048 .f32) (k : Fin 512) :
    topV S (ix1 k)
      = max Attn.negInf ((Finset.univ : Finset (Fin 2048)).fold max Attn.negInf fun i' => S (ix2 k i')) := by
  unfold topV
  rw [maximumf_apply]
  exact congrArg (max Attn.negInf) (max_cols S _ reduces_S512x2048_S512 _ _ k)

/-- A vector [512] laid along the rows of a [512, 2048] array. -/
def colV (v : FVec Ideal S512 .f32) : FVec Ideal S512x2048 .f32 :=
  broadcastTo S512x2048 (shapeCast S512x1 v shapeCasts_S512_S512x1) broadcasts_S512x1_S512x2048

theorem colV_apply (v : FVec Ideal S512 .f32) (k : Fin 512) (i : Fin 2048) : colV v (ix2 k i) = v (ix1 k) := by
  unfold colV
  rw [PhysLoss.broadcastTo_a1_ab_apply, PhysLoss.shapeCast_a_a1_apply]

/-- The exponentials of a [512, 2048] array's entries less their row's largest. -/
def expV (S : FVec Ideal S512x2048 .f32) : FVec Ideal S512x2048 .f32 := exp (subf S (colV (topV S)))

theorem expV_apply (S : FVec Ideal S512x2048 .f32) (k : Fin 512) (i : Fin 2048) :
    expV S (ix2 k i)
      = Ideal.exp (S (ix2 k i)
          - max Attn.negInf ((Finset.univ : Finset (Fin 2048)).fold max Attn.negInf fun i' => S (ix2 k i'))) := by
  unfold expV
  show Ideal.exp (subf S (colV (topV S)) (ix2 k i)) = _
  rw [subf_apply, colV_apply, topV_apply]

/-- Those exponentials divided by their row's sum. -/
def wgtV (S : FVec Ideal S512x2048 .f32) : FVec Ideal S512x2048 .f32 :=
  divf (expV S)
    (colV (multiReduction .add [1] S512 (expV S) 0x00000000#32 reduces_S512x2048_S512 (.inl rfl) rfl))

theorem wgtV_apply (S : FVec Ideal S512x2048 .f32) (k : Fin 512) (i : Fin 2048) :
    wgtV S (ix2 k i) = Ideal.div (expV S (ix2 k i)) (∑ i' : Fin 2048, expV S (ix2 k i')) := by
  unfold wgtV
  rw [divf_apply, colV_apply]
  exact congrArg (Ideal.div (expV S (ix2 k i))) (add_cols (expV S) _ reduces_S512x2048_S512 _ _ k)

/-- The step's payload is the accumulator plus the product, over the tile's keys, of the weights' transpose and the
    value projections. -/
theorem pay4_eq (xt : Vec Ideal S1x512x1024 .f32) (wk wv : Vec Ideal S64x1024 .f32) (q acc : Vec Ideal S2048x64 .f32) :
    k0_pay4 (F := Ideal) xt wk wv q acc
      = addf acc (matmul dot_S512x2048_S512x64_S2048x64_0_0_1_1_n_n none
          (truncf .bf16 (wgtV (scoreV xt wk q)) bitsLt_bf16_f32) (truncf .bf16 (projV xt wv) bitsLt_bf16_f32)
          (constant S2048x64 .f32 0x00000000#32)) :=
  shapeCast_self _ _

/-- One tile's step at (i, d): the accumulator there plus, summed over the tile's 512 keys, the key's normalised
    exponential at query i times the key's value projection at d. -/
theorem pay4_apply (xt : Vec Ideal S1x512x1024 .f32) (wk wv : Vec Ideal S64x1024 .f32) (q acc : Vec Ideal S2048x64 .f32)
    (i : Fin 2048) (d : Fin 64) :
    k0_pay4 (F := Ideal) xt wk wv q acc (ix2 i d)
      = acc (ix2 i d) + ∑ k : Fin 512,
          Ideal.div (E xt wk q k i) (∑ i' : Fin 2048, E xt wk q k i') * kproj xt wv k d := by
  rw [pay4_eq, addf_apply, KerMat.mm_rows]
  refine congrArg (acc (ix2 i d) + ·) (Finset.sum_congr rfl fun k _ => ?_)
  rw [truncf_apply, truncf_apply, projV_apply, wgtV_apply]
  have hE : ∀ i' : Fin 2048, expV (scoreV xt wk q) (ix2 k i') = E xt wk q k i' := fun i' => by
    rw [expV_apply, scoreV_apply]
    unfold E
    refine congrArg (fun f => Ideal.exp (st xt wk q k i' - max Attn.negInf (Finset.fold max Attn.negInf f Finset.univ))) ?_
    funext i''
    exact scoreV_apply xt wk q k i''
  rw [hE i]
  refine congrArg (fun t => Ideal.div (E xt wk q k i) t * kproj xt wv k d) ?_
  exact Finset.sum_congr rfl fun i' _ => hE i'

end KerPay

end
-- ==== Proof.KerAttn.lean ====
/-
  The kernel's payloads on the blocks of one batch, in the specification's words.

  For batch b the kernel sees the whole [2048, 1024] block of x once (for the query projection) and its four key
  tiles of 512 rows, one per step.  On those blocks the query payload is the specification's projection, one step's
  payload adds to the accumulator the tile's keys' share of the attention sum, and four steps from the zero array
  give the attention output summed tile by tile.
-/
import proofs.«103444_j37357625541231_1_alg».proof.Proof.KerPay

noncomputable section

namespace KerAttn

open Idealize.ShloMosaic Idealize.SL.Sem Idealize.ShloMosaic.ValueIdx Cert.KernelIdeal Cert.KernelIdeal.Gen

/-- Row k of key tile t, as a row of the whole sequence. -/
def tileRow (t : Fin 4) (k : Fin 512) : Fin 2048 := ⟨t.val * 512 + k.val, by omega⟩

/-- The block of batch b, [1, 2048, 1024]. -/
def xb (x : Attn.Xs) (b : Fin 8) : Vec Ideal S1x2048x1024 .f32 := fun j => x (ix3 b (j 1) (j 2))

/-- Key tile t of batch b, [1, 512, 1024]. -/
def xt (x : Attn.Xs) (b : Fin 8) (t : Fin 4) : Vec Ideal S1x512x1024 .f32 :=
  fun j => x (ix3 b (tileRow t (j 1)) (j 2))

/-- The query projections of batch b as an array, [2048, 64]. -/
def qv (x : Attn.Xs) (wq : Attn.Ws) (b : Fin 8) : Vec Ideal S2048x64 .f32 := fun j => Attn.proj x wq b (j 0) (j 1)

/-- The query payload on the batch block, at (s, d), is the projection of row s. -/
theorem pay2_proj (x : Attn.Xs) (wq : Attn.Ws) (b : Fin 8) (s : Fin 2048) (d : Fin 64) :
    k0_pay2 (F := Ideal) (xb x b) wq (ix2 s d) = Attn.proj x wq b s d :=
  KerPay.pay2_apply (xb x b) wq s d

/-- So the query payload on the batch block is the array of query projections. -/
theorem pay2_eq (x : Attn.Xs) (wq : Attn.Ws) (b : Fin 8) : k0_pay2 (F := Ideal) (xb x b) wq = qv x wq b :=
  funext fun j =>
    (congrArg (k0_pay2 (F := Ideal) (xb x b) wq) (eq_ix2 j)).trans (pay2_proj x wq b (j 0) (j 1))

/-- A tile's row projected is the sequence's row projected. -/
theorem kproj_proj (x : Attn.Xs) (w : Attn.Ws) (b : Fin 8) (t : Fin 4) (k : Fin 512) (d : Fin 64) :
    KerPay.kproj (xt x b t) w k d = Attn.proj x w b (tileRow t k) d := rfl

/-- A tile's score against the stored query projections is the specification's score. -/
theorem st_score (x : Attn.Xs) (wq wk : Attn.Ws) (b : Fin 8) (t : Fin 4) (k : Fin 512) (i : Fin 2048) :
    KerPay.st (xt x b t) wk (qv x wq b) k i = Attn.score x wq wk b (tileRow t k) i := rfl

/-- The exponential of a tile's score less its key's largest is the specification's. -/
theorem E_ex (x : Attn.Xs) (wq wk : Attn.Ws) (b : Fin 8) (t : Fin 4) (k : Fin 512) (i : Fin 2048) :
    KerPay.E (xt x b t) wk (qv x wq b) k i = Attn.ex x wq wk b (tileRow t k) i := by
  unfold KerPay.E Attn.ex Attn.top
  simp only [st_score]

/-- One step on tile t with the stored query projections, at (i, d): the accumulator plus the share of the tile's
    512 keys in the attention sum. -/
theorem pay4_tile (x : Attn.Xs) (wq wk wv : Attn.Ws) (b : Fin 8) (t : Fin 4) (acc : Vec Ideal S2048x64 .f32)
    (i : Fin 2048) (d : Fin 64) :
    k0_pay4 (F := Ideal) (xt x b t) wk wv (qv x wq b) acc (ix2 i d)
      = acc (ix2 i d)
        + ∑ k : Fin 512, Attn.wgt x wq wk b (tileRow t k) i * Attn.proj x wv b (tileRow t k) d := by
  rw [KerPay.pay4_apply]
  unfold Attn.wgt Attn.den
  simp only [E_ex, kproj_proj]

/-- Four steps from the zero array, at (i, d): the attention output summed tile by tile. -/
theorem four_steps_apply (x : Attn.Xs) (wq wk wv : Attn.Ws) (b : Fin 8) (i : Fin 2048) (d : Fin 64) :
    k0_pay4 (F := Ideal) (xt x b 3) wk wv (k0_pay2 (F := Ideal) (xb x b) wq)
      (k0_pay4 (F := Ideal) (xt x b 2) wk wv (k0_pay2 (F := Ideal) (xb x b) wq)
        (k0_pay4 (F := Ideal) (xt x b 1) wk wv (k0_pay2 (F := Ideal) (xb x b) wq)
          (k0_pay4 (F := Ideal) (xt x b 0) wk wv (k0_pay2 (F := Ideal) (xb x b) wq) (k0_pay3 (F := Ideal)))))
      (ix2 i d)
      = Attn.attnTiled x wq wk wv (ix3 b i d) := by
  rw [pay2_eq, pay4_tile, pay4_tile, pay4_tile, pay4_tile, KerPay.pay3_apply]
  rfl

/-- The same as an equation of arrays. -/
theorem four_steps (x : Attn.Xs) (wq wk wv : Attn.Ws) (b : Fin 8) :
    k0_pay4 (F := Ideal) (xt x b 3) wk wv (k0_pay2 (F := Ideal) (xb x b) wq)
      (k0_pay4 (F := Ideal) (xt x b 2) wk wv (k0_pay2 (F := Ideal) (xb x b) wq)
        (k0_pay4 (F := Ideal) (xt x b 1) wk wv (k0_pay2 (F := Ideal) (xb x b) wq)
          (k0_pay4 (F := Ideal) (xt x b 0) wk wv (k0_pay2 (F := Ideal) (xb x b) wq) (k0_pay3 (F := Ideal)))))
      = fun j => Attn.attnTiled x wq wk wv (ix3 b (j 0) (j 1)) :=
  funext fun j =>
    (congrArg _ (eq_ix2 j)).trans (four_steps_apply x wq wk wv b (j 0) (j 1))

end KerAttn

end
-- ==== Proof.SpecTiled.lean ====
/-
  The attention sum over the 2048 keys equals the same sum taken in four consecutive stretches of 512 keys, added in
  order onto zero.  Only the laws of a commutative additive monoid are used, so the statement holds over the extended
  reals without any finiteness assumption.
-/
import proofs.«103444_j37357625541231_1_alg».proof.Proof.Spec
import Mathlib.Algebra.BigOperators.Fin

noncomputable section

namespace Attn

open Idealize.ShloMosaic Idealize.ShloMosaic.ValueIdx

/-- A sum over 2048 indices is the sum over its four stretches of 512, taken in order starting from zero. -/
theorem sum_four_tiles {M : Type*} [AddCommMonoid M] (f : Fin 2048 → M) :
    ∑ k : Fin 2048, f k =
      (((0 + ∑ k : Fin 512, f ⟨0 * 512 + k.val, by omega⟩) + ∑ k : Fin 512, f ⟨1 * 512 + k.val, by omega⟩)
        + ∑ k : Fin 512, f ⟨2 * 512 + k.val, by omega⟩) + ∑ k : Fin 512, f ⟨3 * 512 + k.val, by omega⟩ := by
  rw [zero_add]
  show ∑ k : Fin (512 + 512 + 512 + 512), f k = _
  rw [Fin.sum_univ_add, Fin.sum_univ_add, Fin.sum_univ_add]
  rfl

/-- Taking the keys tile by tile does not change the attention output. -/
theorem attnTiled_eq (x : Xs) (wq wk wv : Ws) : attnTiled x wq wk wv = attn x wq wk wv := by
  funext j
  exact (sum_four_tiles fun k => wgt x wq wk (j 0) k (j 1) * proj x wv (j 0) k (j 2)).symm

end Attn

end
-- ==== Proof.KerSteps.lean ====
/-
  The two scratch arrays over the four grid points of a batch.

  The grid's 32 points are taken in order; point t works on key tile t mod 4 of batch t div 4.  At a batch's first
  point the query projection is stored and the accumulator starts from the zero array plus the first tile's share;
  at each later point the query projection is kept and the accumulator gains that tile's share.  After the batch's
  fourth point the accumulator holds the attention output of the batch, and the final cast reads it unchanged.
-/
import proofs.«103444_j37357625541231_1_alg».proof.Proof.KerAttn
import proofs.«103444_j37357625541231_1_alg».proof.Proof.SpecTiled

noncomputable section

namespace KerSteps

open Idealize.ShloMosaic Idealize.SL.Sem Idealize.ShloMosaic.ValueIdx Cert.KernelIdeal Cert.KernelIdeal.Gen

/-- A grid point's batch is one of the 8. -/
theorem batch_lt (t : Fin 32) : t.val / 4 < 8 := by omega

/-- Row k of a grid point's key tile is a row of the sequence. -/
theorem row_lt (t : Fin 32) (k : Fin 512) : t.val % 4 * 512 + k.val < 2048 := by omega

/-- The point before a grid point is a grid point. -/
theorem pred_lt (t : Fin 32) : t.val - 1 < 32 := by omega

/-- A family indexed by a bounded natural number depends on the number only. -/
theorem scr_congr {α : Type} (scr : (n : ℕ) → n < 32 → α) {n n' : ℕ} (h : n = n') (p : n < 32) (p' : n' < 32) :
    scr n p = scr n' p' := by
  subst h; rfl

/-- After the fourth point of batch b the accumulator holds the batch's attention output. -/
theorem acc_after_batch (x : Attn.Xs) (wq wk wv : Attn.Ws)
    (scr : (n : ℕ) → n < 32 → Vec Ideal S2048x64 .f32 × Vec Ideal S2048x64 .f32)
    (b0 : Fin 32 → Vec Ideal S1x2048x1024 .f32) (b1 : Fin 32 → Vec Ideal S1x512x1024 .f32)
    (b2 b3 b4 : Fin 32 → Vec Ideal S64x1024 .f32)
    (h0 : ∀ (t : Fin 32) (y : S1x2048x1024.Idx), b0 t y = x (ix3 ⟨t.val / 4, batch_lt t⟩ (y 1) (y 2)))
    (h1 : ∀ (t : Fin 32) (y : S1x512x1024.Idx),
      b1 t y = x (ix3 ⟨t.val / 4, batch_lt t⟩ ⟨t.val % 4 * 512 + (y 1).val, row_lt t (y 1)⟩ (y 2)))
    (h2 : ∀ t, b2 t = wq) (h3 : ∀ t, b3 t = wk) (h4 : ∀ t, b4 t = wv)
    (hfirst : ∀ t : Fin 32, t.val % 4 = 0 → scr t.val t.isLt
      = (k0_pay2 (F := Ideal) (b0 t) (b2 t),
         k0_pay4 (F := Ideal) (b1 t) (b3 t) (b4 t) (k0_pay2 (F := Ideal) (b0 t) (b2 t)) (k0_pay3 (F := Ideal))))
    (hnext : ∀ t : Fin 32, t.val % 4 ≠ 0 → scr t.val t.isLt
      = ((scr (t.val - 1) (pred_lt t)).1,
         k0_pay4 (F := Ideal) (b1 t) (b3 t) (b4 t) (scr (t.val - 1) (pred_lt t)).1 (scr (t.val - 1) (pred_lt t)).2))
    (b : Fin 8) :
    (scr (4 * b.val + 3) (by omega)).2 = fun j => Attn.attn x wq wk wv (ix3 b (j 0) (j 1)) := by
  have hb0 : ∀ t : Fin 32, t.val / 4 = b.val → b0 t = KerAttn.xb x b := fun t hb => funext fun y => by
    have e : (⟨t.val / 4, batch_lt t⟩ : Fin 8) = b := Fin.ext hb
    rw [h0 t y, e]; rfl
  have hb1 : ∀ (t : Fin 32) (j : Fin 4), t.val / 4 = b.val → t.val % 4 = j.val → b1 t = KerAttn.xt x b j :=
    fun t j hb hj => funext fun y => by
      have e : (⟨t.val / 4, batch_lt t⟩ : Fin 8) = b := Fin.ext hb
      have e' : (⟨t.val % 4 * 512 + (y 1).val, row_lt t (y 1)⟩ : Fin 2048) = KerAttn.tileRow j (y 1) :=
        Fin.ext (by show t.val % 4 * 512 + (y 1).val = j.val * 512 + (y 1).val; rw [hj])
      rw [h1 t y, e, e']; rfl
  have e0 : scr (4 * b.val) (by omega)
      = (k0_pay2 (F := Ideal) (KerAttn.xb x b) wq, (k0_pay4 (F := Ideal) (KerAttn.xt x b 0) wk wv (k0_pay2 (F := Ideal) (KerAttn.xb x b) wq) (k0_pay3 (F := Ideal)))) := by
    have h := hfirst ⟨4 * b.val, by omega⟩ (by show 4 * b.val % 4 = 0; omega)
    rw [hb0 ⟨4 * b.val, by omega⟩ (by show 4 * b.val / 4 = b.val; omega),
      hb1 ⟨4 * b.val, by omega⟩ 0 (by show 4 * b.val / 4 = b.val; omega) (by show 4 * b.val % 4 = 0; omega),
      h2, h3, h4] at h
    exact h
  have e1 : scr (4 * b.val + 1) (by omega)
      = (k0_pay2 (F := Ideal) (KerAttn.xb x b) wq, (k0_pay4 (F := Ideal) (KerAttn.xt x b 1) wk wv (k0_pay2 (F := Ideal) (KerAttn.xb x b) wq) (k0_pay4 (F := Ideal) (KerAttn.xt x b 0) wk wv (k0_pay2 (F := Ideal) (KerAttn.xb x b) wq) (k0_pay3 (F := Ideal))))) := by
    have h := hnext ⟨4 * b.val + 1, by omega⟩ (by show (4 * b.val + 1) % 4 ≠ 0; omega)
    have hp : scr ((⟨4 * b.val + 1, by omega⟩ : Fin 32).val - 1) (pred_lt _)
        = (k0_pay2 (F := Ideal) (KerAttn.xb x b) wq, (k0_pay4 (F := Ideal) (KerAttn.xt x b 0) wk wv (k0_pay2 (F := Ideal) (KerAttn.xb x b) wq) (k0_pay3 (F := Ideal)))) :=
      (scr_congr scr (by show 4 * b.val + 1 - 1 = 4 * b.val; omega) _ _).trans e0
    rw [hp, hb1 ⟨4 * b.val + 1, by omega⟩ 1 (by show (4 * b.val + 1) / 4 = b.val; omega)
      (by show (4 * b.val + 1) % 4 = 1; omega), h3, h4] at h
    exact h
  have e2 : scr (4 * b.val + 2) (by omega)
      = (k0_pay2 (F := Ideal) (KerAttn.xb x b) wq, (k0_pay4 (F := Ideal) (KerAttn.xt x b 2) wk wv (k0_pay2 (F := Ideal) (KerAttn.xb x b) wq) (k0_pay4 (F := Ideal) (KerAttn.xt x b 1) wk wv (k0_pay2 (F := Ideal) (KerAttn.xb x b) wq) (k0_pay4 (F := Ideal) (KerAttn.xt x b 0) wk wv (k0_pay2 (F := Ideal) (KerAttn.xb x b) wq) (k0_pay3 (F := Ideal)))))) := by
    have h := hnext ⟨4 * b.val + 2, by omega⟩ (by show (4 * b.val + 2) % 4 ≠ 0; omega)
    have hp : scr ((⟨4 * b.val + 2, by omega⟩ : Fin 32).val - 1) (pred_lt _)
        = (k0_pay2 (F := Ideal) (KerAttn.xb x b) wq, (k0_pay4 (F := Ideal) (KerAttn.xt x b 1) wk wv (k0_pay2 (F := Ideal) (KerAttn.xb x b) wq) (k0_pay4 (F := Ideal) (KerAttn.xt x b 0) wk wv (k0_pay2 (F := Ideal) (KerAttn.xb x b) wq) (k0_pay3 (F := Ideal))))) :=
      (scr_congr scr (by show 4 * b.val + 2 - 1 = 4 * b.val + 1; omega) _ _).trans e1
    rw [hp, hb1 ⟨4 * b.val + 2, by omega⟩ 2 (by show (4 * b.val + 2) / 4 = b.val; omega)
      (by show (4 * b.val + 2) % 4 = 2; omega), h3, h4] at h
    exact h
  have e3 : scr (4 * b.val + 3) (by omega)
      = (k0_pay2 (F := Ideal) (KerAttn.xb x b) wq, (k0_pay4 (F := Ideal) (KerAttn.xt x b 3) wk wv (k0_pay2 (F := Ideal) (KerAttn.xb x b) wq) (k0_pay4 (F := Ideal) (KerAttn.xt x b 2) wk wv (k0_pay2 (F := Ideal) (KerAttn.xb x b) wq) (k0_pay4 (F := Ideal) (KerAttn.xt x b 1) wk wv (k0_pay2 (F := Ideal) (KerAttn.xb x b) wq) (k0_pay4 (F := Ideal) (KerAttn.xt x b 0) wk wv (k0_pay2 (F := Ideal) (KerAttn.xb x b) wq) (k0_pay3 (F := Ideal))))))) := by
    have h := hnext ⟨4 * b.val + 3, by omega⟩ (by show (4 * b.val + 3) % 4 ≠ 0; omega)
    have hp : scr ((⟨4 * b.val + 3, by omega⟩ : Fin 32).val - 1) (pred_lt _)
        = (k0_pay2 (F := Ideal) (KerAttn.xb x b) wq, (k0_pay4 (F := Ideal) (KerAttn.xt x b 2) wk wv (k0_pay2 (F := Ideal) (KerAttn.xb x b) wq) (k0_pay4 (F := Ideal) (KerAttn.xt x b 1) wk wv (k0_pay2 (F := Ideal) (KerAttn.xb x b) wq) (k0_pay4 (F := Ideal) (KerAttn.xt x b 0) wk wv (k0_pay2 (F := Ideal) (KerAttn.xb x b) wq) (k0_pay3 (F := Ideal)))))) :=
      (scr_congr scr (by show 4 * b.val + 3 - 1 = 4 * b.val + 2; omega) _ _).trans e2
    rw [hp, hb1 ⟨4 * b.val + 3, by omega⟩ 3 (by show (4 * b.val + 3) / 4 = b.val; omega)
      (by show (4 * b.val + 3) % 4 = 3; omega), h3, h4] at h
    exact h
  rw [e3]
  exact (KerAttn.four_steps x wq wk wv b).trans
    (funext fun j => congrFun (Attn.attnTiled_eq x wq wk wv) (ix3 b (j 0) (j 1)))

/-- So the output block written after the batch's fourth point, at (0, i, d), is the attention output at (b, i, d). -/
theorem out_after_batch (x : Attn.Xs) (wq wk wv : Attn.Ws)
    (scr : (n : ℕ) → n < 32 → Vec Ideal S2048x64 .f32 × Vec Ideal S2048x64 .f32)
    (b0 : Fin 32 → Vec Ideal S1x2048x1024 .f32) (b1 : Fin 32 → Vec Ideal S1x512x1024 .f32)
    (b2 b3 b4 : Fin 32 → Vec Ideal S64x1024 .f32)
    (h0 : ∀ (t : Fin 32) (y : S1x2048x1024.Idx), b0 t y = x (ix3 ⟨t.val / 4, batch_lt t⟩ (y 1) (y 2)))
    (h1 : ∀ (t : Fin 32) (y : S1x512x1024.Idx),
      b1 t y = x (ix3 ⟨t.val / 4, batch_lt t⟩ ⟨t.val % 4 * 512 + (y 1).val, row_lt t (y 1)⟩ (y 2)))
    (h2 : ∀ t, b2 t = wq) (h3 : ∀ t, b3 t = wk) (h4 : ∀ t, b4 t = wv)
    (hfirst : ∀ t : Fin 32, t.val % 4 = 0 → scr t.val t.isLt
      = (k0_pay2 (F := Ideal) (b0 t) (b2 t),
         k0_pay4 (F := Ideal) (b1 t) (b3 t) (b4 t) (k0_pay2 (F := Ideal) (b0 t) (b2 t)) (k0_pay3 (F := Ideal))))
    (hnext : ∀ t : Fin 32, t.val % 4 ≠ 0 → scr t.val t.isLt
      = ((scr (t.val - 1) (pred_lt t)).1,
         k0_pay4 (F := Ideal) (b1 t) (b3 t) (b4 t) (scr (t.val - 1) (pred_lt t)).1 (scr (t.val - 1) (pred_lt t)).2))
    (b : Fin 8) (i : Fin 2048) (d : Fin 64) :
    k0_pay1 (F := Ideal) (scr (4 * b.val + 3) (by omega)).2 (ix3 0 i d) = Attn.attn x wq wk wv (ix3 b i d) :=
  (KerPay.pay1_apply _ i d).trans
    (congrFun (acc_after_batch x wq wk wv scr b0 b1 b2 b3 b4 h0 h1 h2 h3 h4 hfirst hnext b) (ix2 i d))

end KerSteps

end
-- ==== Proof.KernelIdeal.ValOut.lean ====
/-
  The output array in closed form.  After the fourth grid point of a batch the output window's buffer holds the
  batch's attention output; those eight buffers are written back to the eight slabs of the [8, 2048, 64] array, so the
  array ends holding the attention output of the four arguments.
-/
import proofs.«103444_j37357625541231_1_alg».proof.Proof.KernelIdeal.FrBody
import proofs.«103444_j37357625541231_1_alg».proof.Proof.KernelIdeal.ValGlue3
import proofs.«103444_j37357625541231_1_alg».proof.Proof.KerSteps

noncomputable section

namespace Cert.KernelIdeal.Val

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (c : Dev nD)

/-- The sequences and the three projection matrices as the region finds them. -/
abbrev argX : Attn.Xs := (Fr.V m c main_arg0 : S8x2048x1024.Idx → Elt Ideal .f32)
abbrev argWq : Attn.Ws := (Fr.V m c main_arg1 : S64x1024.Idx → Elt Ideal .f32)
abbrev argWk : Attn.Ws := (Fr.V m c main_arg2 : S64x1024.Idx → Elt Ideal .f32)
abbrev argWv : Attn.Ws := (Fr.V m c main_arg3 : S64x1024.Idx → Elt Ideal .f32)

/-- One of 32 points as a grid point. -/
abbrev pt (t : Fin 32) : Fin cfg0.N := Fin.cast N_0.symm t

/-- Whatever pair of arrays follows the scratch arrays' two equations over the grid: at a batch's fourth point the
    accumulator behind the final cast, at (z, i, d), is the attention output at (batch, i, d). -/
theorem out_block (scr : (n : ℕ) → n < cfg0.N → Vec Ideal S2048x64 .f32 × Vec Ideal S2048x64 .f32)
    (hfirst : ∀ t : Fin cfg0.N, t.val % 4 = 0 → scr t.val t.isLt
      = (k0_pay2 (F := Ideal) (Fr.iblk m c 0 t) (Fr.iblk m c 2 t),
         k0_pay4 (F := Ideal) (Fr.iblk m c 1 t) (Fr.iblk m c 3 t) (Fr.iblk m c 4 t)
           (k0_pay2 (F := Ideal) (Fr.iblk m c 0 t) (Fr.iblk m c 2 t)) (k0_pay3 (F := Ideal))))
    (hnext : ∀ t : Fin cfg0.N, t.val % 4 ≠ 0 → scr t.val t.isLt
      = ((scr (t.val - 1) (Nat.lt_of_le_of_lt (Nat.sub_le _ _) t.isLt)).1,
         k0_pay4 (F := Ideal) (Fr.iblk m c 1 t) (Fr.iblk m c 3 t) (Fr.iblk m c 4 t)
           (scr (t.val - 1) (Nat.lt_of_le_of_lt (Nat.sub_le _ _) t.isLt)).1 (scr (t.val - 1) (Nat.lt_of_le_of_lt (Nat.sub_le _ _) t.isLt)).2))
    (t : Fin cfg0.N) (ht : t.val % 4 = 3) (y : S1x2048x64.Idx) :
    k0_pay1 (F := Ideal) (scr t.val t.isLt).2 y
      = Attn.attn (argX m c) (argWq m c) (argWk m c) (argWv m c) (ix3 (batchOf t) (y 1) (y 2)) := by
  have ht32 := lt32 t
  have hy : y = ix3 (0 : Fin 1) (y 1) (y 2) := by
    funext a
    match a with
    | ⟨0, _⟩ => exact Fin.ext (by have h1 : (y 0).val < 1 := (y 0).isLt; show (y 0).val = 0; omega)
    | ⟨1, _⟩ => rfl
    | ⟨2, _⟩ => rfl
  have hcongr : ∀ (n n' : ℕ) (h : n = n') (p : n < cfg0.N) (p' : n' < cfg0.N), scr n p = scr n' p' := by
    intro n n' h p p'; subst h; rfl
  have key := KerSteps.out_after_batch (argX m c) (argWq m c) (argWk m c) (argWv m c)
    (fun n hn => scr n (lt_of_lt_of_eq hn N_0.symm))
    (fun t => Fr.iblk m c 0 (pt t)) (fun t => Fr.iblk m c 1 (pt t))
    (fun t => Fr.iblk m c 2 (pt t)) (fun t => Fr.iblk m c 3 (pt t)) (fun t => Fr.iblk m c 4 (pt t))
    (fun t y => iblk0_apply m c (pt t) y _ rfl rfl rfl)
    (fun t y => iblk1_apply m c (pt t) y _ rfl rfl rfl)
    (fun t => iblk2_eq m c (pt t)) (fun t => iblk3_eq m c (pt t)) (fun t => iblk4_eq m c (pt t))
    (fun t h => hfirst (pt t) h) (fun t h => hnext (pt t) h)
    (batchOf t) (y 1) (y 2)
  have e : 4 * (batchOf t).val + 3 = t.val := by show 4 * (t.val / 4) + 3 = t.val; omega
  refine (congrArg (k0_pay1 (F := Ideal) (scr t.val t.isLt).2) hy).trans ?_
  rw [← hcongr _ _ e (by rw [e]; exact t.isLt) t.isLt]
  exact key

/-- The region's output array ends holding the attention output of its four arguments. -/
theorem out_array :
    (Fr.dats (F := Ideal) m 0 c).arrAt 5 cfg0.N
      = Attn.attn (Fr.V m c main_arg0) (Fr.V m c main_arg1) (Fr.V m c main_arg2) (Fr.V m c main_arg3) := by
  refine out_final (F := Ideal) c (Fr.dats (F := Ideal) m 0 c) _ fun t ht => ?_
  funext y
  show (Fr.dats (F := Ideal) m 0 c).after 5 t y = _
  rw [Fr.out_last m c t ht]
  refine (out_block m c (Fr.scrAt m c) (Fr.scr_first m c) (Fr.scr_next m c) t ht y).trans ?_
  exact (blk5_read_apply (F := Ideal) t _ y (ix3 (batchOf t) (y 1) (y 2)) rfl rfl rfl).symm

end Cert.KernelIdeal.Val

end
-- ==== Proof.KernelIdeal.ValRun.lean ====
/-
  The idealized kernel's run with its result in closed form: the three layout operations (the 64 head coordinates
  repeated 16 times) applied to the attention output of the argument arrays, which is what the four accumulated key
  tiles of every batch add up to.
-/
import proofs.«103444_j37357625541231_1_alg».proof.Proof.KernelIdeal.Frame
import proofs.«103444_j37357625541231_1_alg».proof.Proof.KernelIdeal.ValGlue1
import proofs.«103444_j37357625541231_1_alg».proof.Proof.KernelIdeal.ValOut

set_option maxRecDepth 16384

noncomputable section

namespace Cert.KernelIdeal.Val

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- The result array after the run is the repeated attention output of the argument arrays; the arguments are
    unchanged. -/
theorem run_spec : θ_run (defs (F := Ideal)) (onTc (τ := τ) (main (F := Ideal))) ⟨m, fun _ => 0, ρ⟩ (fun r => ∀ c : Dev nD,
      r.2.mem ((c.tc : Thread nD τ).loc main_v3)
        = Attn.tile Cert.KernelIdeal.Gen.shapeCasts_S8x2048x64_S1x8x1x2048x1x64 Cert.KernelIdeal.Gen.bcast_S1x8x1x2048x1x64_S1x8x1x2048x16x64_0_1_2_3_4_5
            Cert.KernelIdeal.Gen.shapeCasts_S1x8x1x2048x16x64_S8x2048x1024
            (Attn.attn (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2.trans ((tail_eq m c _).trans (congrArg (Attn.tile _ _ _) (out_array m c))),
      ((h c).1 0).trans (Fr.kept m c 0 rfl), ((h c).1 2).trans (Fr.kept m c 2 rfl), ((h c).1 3).trans (Fr.kept m c 3 rfl), ((h c).1 4).trans (Fr.kept m c 4 rfl)⟩)
    (Fr.run_main m ρ)

end Cert.KernelIdeal.Val

end
-- ==== Proof.LibMaxReduce.lean ====
/-
  Maximum reductions read at an index, over the extended reals, as folds of `max` over one coordinate.

  A vector maximum-reduction of an [a, b] array over its rows, at lane q, is the fold of max from the accumulator's
  value over the entries (j, q); the host's reduce with a maximum body over the middle axis of an [a, b, c] array,
  at (n, k), is the fold of max from the initial value over the entries (n, j, k).  Each index with the reduced
  coordinate put back is named by its coordinates, so a proof continues entry by entry.
-/
import Idealize.ShloMosaic.PureOps.Ideal.Laws
import Idealize.ShloMosaic.PureOps.Reduce
import Idealize.ShloMosaic.Lib.ValueIdx

noncomputable section

namespace MaxReduce

open Idealize.ShloMosaic Idealize.ShloMosaic.ValueIdx

variable {a b c : ℕ}

/-- In an [a, b] array reduced over its rows, the reduced index `q` with row `j` put back is (j, q). -/
theorem lift_rows (h : (⟨2, ![a, b]⟩ : Shape).Reduces [0] (⟨1, ![b]⟩ : Shape)) (q : Fin b)
    (j : Fin ((⟨2, ![a, b]⟩ : Shape).size 0)) : h.lift (ix1 q) j = ix2 (⟨j.val, j.isLt⟩ : Fin a) q := by
  funext d; apply Fin.ext
  fin_cases d <;> rfl

/-- A vector maximum-reduction of an [a, b] array over its rows, at lane `q`: the fold of max from the accumulator's
    value over the rows' entries at that lane. -/
theorem multiReduction_max_rows {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (q : Fin b) :
    multiReduction .maximumf [0] (⟨1, ![b]⟩ : Shape) src acc h hφ hacc (ix1 q)
      = (Finset.univ : Finset (Fin a)).fold max (Ideal.ofBits φ acc) fun j => src (ix2 j q) := by
  refine (Ideal.multiReduction_maximumf_single src acc h hφ hacc (ix1 q)).trans ?_
  refine congrArg (fun f => Finset.fold max (Ideal.ofBits φ acc) f (Finset.univ : Finset (Fin a))) ?_
  funext j
  exact congrArg src (lift_rows h q j)

/-- In an [a, b, c] array reduced over its middle axis, the reduced index (n, k) with coordinate `j` put back is
    (n, j, k). -/
theorem lift_mid (h : (⟨3, ![a, b, c]⟩ : Shape).Reduces [1] (⟨2, ![a, c]⟩ : Shape)) (n : Fin a) (k : Fin c)
    (j : Fin ((⟨3, ![a, b, c]⟩ : Shape).size 1)) : h.lift (ix2 n k) j = ix3 n (⟨j.val, j.isLt⟩ : Fin b) k := by
  funext d; apply Fin.ext
  fin_cases d <;> rfl

/-- The host's reduce with a maximum body over the middle axis of an [a, b, c] array, at (n, k): the fold of max
    from the initial value's element over the entries (n, j, k). -/
theorem hostReduce_max_mid {φ : FTy} {u : Shape} (x : FVec Ideal ⟨3, ![a, b, c]⟩ φ) (init : u.Idx → Ideal φ)
    (h' : (⟨3, ![a, b, c]⟩ : Shape).ReducesTo [1] (⟨2, ![a, c]⟩ : Shape))
    (h : (⟨3, ![a, b, c]⟩ : Shape).Reduces [1] (⟨2, ![a, c]⟩ : Shape)) (hu : 0 < u.numel) (n : Fin a) (k : Fin c) :
    Host.reduce FloatOps.maximumf x init h' hu (ix2 n k)
      = (Finset.univ : Finset (Fin b)).fold max (init (Shape.Idx.first hu)) fun j => x (ix3 n j k) := by
  rw [Host.reduce_eq_fold_single FloatOps.maximumf x init h' h hu]
  refine congrArg (fun f => Finset.fold max (init (Shape.Idx.first hu)) f (Finset.univ : Finset (Fin b))) ?_
  funext j
  exact congrArg x (lift_mid h n k j)

end MaxReduce

end
-- ==== Proof.RefStages.lean ====
/-
  The reference program, stage by stage, read at an index over the extended reals.

  The three projections are sums over the 1024 embedding coordinates; the batched product of the query and key
  projections is the score (with the two factors in the other order); the maximum over the queries, compared once more
  with minus infinity, is the key's largest score; subtracting it and exponentiating gives the exponentials, their sum
  over the queries the denominator, the quotient the weight; the last batched product is the weighted sum of the value
  projections over the keys.  Each stage is identified with the corresponding function of the specification.
-/
import proofs.«103444_j37357625541231_1_alg».proof.Proof.Gen.ReferenceIdeal.Read
import proofs.«103444_j37357625541231_1_alg».proof.Proof.Spec
import proofs.«103444_j37357625541231_1_alg».proof.Proof.LibMaxReduce

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x : Attn.Xs) (wq wk wv : Attn.Ws)

/-! ### The projections -/

/-- The query projection: row s of batch b against row d of the query matrix. -/
theorem proj_q (b : Fin 8) (s : Fin 2048) (d : Fin 64) :
    val_main_v0 (F := Ideal) x wq (ix3 b s d) = Attn.proj x wq b s d := by
  rw [val_main_v0_apply]
  refine Finset.sum_congr rfl fun e _ => ?_
  rw [show lidx_main_v0 (ix3 b s d) e = ix3 b s e from
      funext fun a => Fin.ext (by match a with | ⟨0, _⟩ => rfl | ⟨1, _⟩ => rfl | ⟨2, _⟩ => rfl),
    show ridx_main_v0 (ix3 b s d) e = ix2 d e from
      funext fun a => Fin.ext (by match a with | ⟨0, _⟩ => rfl | ⟨1, _⟩ => rfl)]

/-- The key projection. -/
theorem proj_k (b : Fin 8) (s : Fin 2048) (d : Fin 64) :
    val_main_v1 (F := Ideal) x wk (ix3 b s d) = Attn.proj x wk b s d := by
  rw [val_main_v1_apply]
  refine Finset.sum_congr rfl fun e _ => ?_
  rw [show lidx_main_v1 (ix3 b s d) e = ix3 b s e from
      funext fun a => Fin.ext (by match a with | ⟨0, _⟩ => rfl | ⟨1, _⟩ => rfl | ⟨2, _⟩ => rfl),
    show ridx_main_v1 (ix3 b s d) e = ix2 d e from
      funext fun a => Fin.ext (by match a with | ⟨0, _⟩ => rfl | ⟨1, _⟩ => rfl)]

/-- The value projection. -/
theorem proj_v (b : Fin 8) (s : Fin 2048) (d : Fin 64) :
    val_main_v2 (F := Ideal) x wv (ix3 b s d) = Attn.proj x wv b s d := by
  rw [val_main_v2_apply]
  refine Finset.sum_congr rfl fun e _ => ?_
  rw [show lidx_main_v2 (ix3 b s d) e = ix3 b s e from
      funext fun a => Fin.ext (by match a with | ⟨0, _⟩ => rfl | ⟨1, _⟩ => rfl | ⟨2, _⟩ => rfl),
    show ridx_main_v2 (ix3 b s d) e = ix2 d e from
      funext fun a => Fin.ext (by match a with | ⟨0, _⟩ => rfl | ⟨1, _⟩ => rfl)]

/-! ### The scores -/

/-- Entry (b, i, k) of the batched product is the score of key k against query i; the reference multiplies the
    query's projection first. -/
theorem score_eq (b : Fin 8) (i k : Fin 2048) :
    val_main_v3 (F := Ideal) x wq wk (ix3 b i k) = Attn.score x wq wk b k i := by
  rw [val_main_v3_apply]
  refine Finset.sum_congr rfl fun d _ => ?_
  rw [show lidx_main_v3 (ix3 b i k) d = ix3 b i d from
      funext fun a => Fin.ext (by match a with | ⟨0, _⟩ => rfl | ⟨1, _⟩ => rfl | ⟨2, _⟩ => rfl),
    show ridx_main_v3 (ix3 b i k) d = ix3 b k d from
      funext fun a => Fin.ext (by match a with | ⟨0, _⟩ => rfl | ⟨1, _⟩ => rfl | ⟨2, _⟩ => rfl),
    proj_q, proj_k, mul_comm]

/-! ### The largest score of a key -/

theorem top_eq (b : Fin 8) (k : Fin 2048) :
    val_main_v6 (F := Ideal) x wq wk (ix2 b k) = Attn.top x wq wk b k := by
  rw [val_main_v6_apply, val_main_v5_apply, val_main_cst_0_apply]
  unfold val_main_v4
  rw [MaxReduce.hostReduce_max_mid (val_main_v3 (F := Ideal) x wq wk) (val_main_cst (F := Ideal))
    reducesTo_S8x2048x2048_S8x2048_d1 (by decide) h_S_ b k, val_main_cst_apply]
  simp only [score_eq, Ideal.maximumf_def, Ideal.ofBits_def]
  rfl

/-! ### Exponentials, their sums, the weights -/

theorem ex_eq (b : Fin 8) (i k : Fin 2048) :
    val_main_v10 (F := Ideal) x wq wk (ix3 b i k) = Attn.ex x wq wk b k i := by
  rw [val_main_v10_apply, val_main_v9_apply, val_main_v8_apply, val_main_v7_apply,
    show idx_main_v7 (idx_main_v8 (ix3 b i k)) = ix2 b k from
      funext fun a => Fin.ext (by match a with | ⟨0, _⟩ => rfl | ⟨1, _⟩ => rfl),
    top_eq, score_eq]
  rfl

theorem den_eq (b : Fin 8) (k : Fin 2048) :
    val_main_v11 (F := Ideal) x wq wk (ix2 b k) = Attn.den x wq wk b k := by
  rw [val_main_v11_apply, val_main_cst_1_apply, Ideal.ofBits_def, Ideal.ofBits_zero_f32, zero_add]
  refine Finset.sum_congr rfl fun i _ => ?_
  rw [show idx_main_v11 (ix2 b k) i = ix3 b i k from
      funext fun a => Fin.ext (by match a with | ⟨0, _⟩ => rfl | ⟨1, _⟩ => rfl | ⟨2, _⟩ => rfl),
    ex_eq]

theorem wgt_eq (b : Fin 8) (i k : Fin 2048) :
    val_main_v14 (F := Ideal) x wq wk (ix3 b i k) = Attn.wgt x wq wk b k i := by
  rw [val_main_v14_apply, val_main_v13_apply, val_main_v12_apply,
    show idx_main_v12 (idx_main_v13 (ix3 b i k)) = ix2 b k from
      funext fun a => Fin.ext (by match a with | ⟨0, _⟩ => rfl | ⟨1, _⟩ => rfl),
    den_eq, ex_eq]
  rfl

/-! ### The attention output before the heads are repeated -/

theorem attn_eq : val_main_v15 (F := Ideal) x wq wk wv = Attn.attn x wq wk wv := by
  funext j
  obtain ⟨b, i, d, rfl⟩ : ∃ (b : Fin 8) (i : Fin 2048) (d : Fin 64), j = ix3 b i d := ⟨j 0, j 1, j 2, eq_ix3 j⟩
  rw [val_main_v15_apply]
  show _ = ∑ k : Fin 2048, Attn.wgt x wq wk b k i * Attn.proj x wv b k d
  refine Finset.sum_congr rfl fun k _ => ?_
  rw [show lidx_main_v15 (ix3 b i d) k = ix3 b i k from
      funext fun a => Fin.ext (by match a with | ⟨0, _⟩ => rfl | ⟨1, _⟩ => rfl | ⟨2, _⟩ => rfl),
    show ridx_main_v15 (ix3 b i d) k = ix3 b k d from
      funext fun a => Fin.ext (by match a with | ⟨0, _⟩ => rfl | ⟨1, _⟩ => rfl | ⟨2, _⟩ => rfl),
    wgt_eq, proj_v]

end Cert.ReferenceIdeal.RefValue

end
-- ==== Proof.RefValue.lean ====
/-
  What the reference program leaves in its result array: the attention output of the specification, with its 64 head
  coordinates repeated 16 times along the last axis, as a function of the four argument arrays, which end unchanged.
-/
import proofs.«103444_j37357625541231_1_alg».proof.Proof.RefStages
import proofs.«103444_j37357625541231_1_alg».proof.Proof.SpecTile

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The reference's last stage is the shared tail applied to the attention output: its three closing operations are
    the view, the repetition and the view of `Attn.tile`, and the stage before them is `Attn.attn`. -/
theorem result_eq (x : Attn.Xs) (wq wk wv : Attn.Ws) :
    val_main_v18 (F := Ideal) x wq wk wv
      = Attn.tile Cert.ReferenceIdeal.Gen.shapeCasts_S8x2048x64_S1x8x1x2048x1x64
          Cert.ReferenceIdeal.Gen.bcast_S1x8x1x2048x1x64_S1x8x1x2048x16x64_0_1_2_3_4_5
          Cert.ReferenceIdeal.Gen.shapeCasts_S1x8x1x2048x16x64_S8x2048x1024 (Attn.attn x wq wk wv) := by
  rw [← attn_eq]
  rfl

/-- Every weakly fair execution of the reference ends with its result array at the tiled attention output of the
    argument arrays, and the arguments unchanged. -/
theorem run_spec (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v18)
          = Attn.tile Cert.ReferenceIdeal.Gen.shapeCasts_S8x2048x64_S1x8x1x2048x1x64
              Cert.ReferenceIdeal.Gen.bcast_S1x8x1x2048x1x64_S1x8x1x2048x16x64_0_1_2_3_4_5
              Cert.ReferenceIdeal.Gen.shapeCasts_S1x8x1x2048x16x64_S8x2048x1024
              (Attn.attn (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg2))
                (m' ((c.tc : Thread Cert.ReferenceIdeal.nD Cert.ReferenceIdeal.τ).loc Cert.ReferenceIdeal.main_arg3)))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run _ _ _).mono
    (fun _ h c => ⟨((h c).1.trans (val_main_v18_eq (F := Ideal) _ _ _ _)).trans (result_eq _ _ _ _), (h c).2⟩)
    (Cert.ReferenceIdeal.Value.run (F := Ideal) m' ρ')

end Cert.ReferenceIdeal.RefValue

end
-- ==== Proof.lean ====
/-
  The certificate's five claims for one attention head with the softmax taken over the QUERIES.

  Both programs project every row of x three times (q, k, v = x·Wqᵀ, x·Wkᵀ, x·Wvᵀ), score each key against each
  query by the inner product of their projections, subtract from every score of a key the largest score of that
  key, exponentiate, divide by the key's sum over the queries, and output at each query the weighted sum of the
  keys' value projections; the 64 head coordinates are then repeated 16 times.  The reference does this with whole
  arrays.  The kernel walks a grid of 8 batches by 4 key tiles of 512: at a batch's first tile it computes the
  batch's whole query projection once and zeroes an accumulator, both kept in scratch arrays between grid points;
  at every tile it adds that tile's 512 keys' contribution to the accumulator; after the last tile it writes the
  accumulator out.  Over the extended reals the two differ only by the order of the two factors of a score and by
  the grouping of the sum over the 2048 keys into four stretches of 512 added onto zero: commutativity of the
  product and associativity of the sum, with no use of finiteness.

  The frames of the two kernel programs: the kernel's body runs at every grid point in one of three cases (first
  tile, middle tiles, last tile), the launch hands the one array x to its two readers half each, and the argument
  arrays are only ever read.  The reference's frame is its run with the result dropped.  The idealization rewrote
  nothing, so the fourth claim is trivial.
-/
import proofs.«103444_j37357625541231_1_alg».proof.Defs
import proofs.«103444_j37357625541231_1_alg».proof.Proof.Gen.Kernel
import proofs.«103444_j37357625541231_1_alg».proof.Proof.Gen.KernelIdeal
import proofs.«103444_j37357625541231_1_alg».proof.Proof.Gen.ReferenceIdeal
import proofs.«103444_j37357625541231_1_alg».proof.Proof.Gen.Pre_finite_inputs
import proofs.«103444_j37357625541231_1_alg».proof.Proof.Kernel.Frame
import proofs.«103444_j37357625541231_1_alg».proof.Proof.KernelIdeal.ValRun
import proofs.«103444_j37357625541231_1_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel :=
  fun m ρ _ => Cert.Kernel.Fr.frame (F := Bits) m ρ

/-- So does the idealized kernel program. -/
theorem frame_ki : Cert.frame_KernelIdeal :=
  fun m ρ _ => Cert.KernelIdeal.Fr.frame (F := Ideal) m ρ

/-- The reference's frame is its run with the result dropped. -/
theorem frame_ri : Cert.frame_ReferenceIdeal :=
  fun m ρ _ => (θ_run Cert.ReferenceIdeal.defs _ _).mono (fun _ h c => (h c).2) (Cert.ReferenceIdeal.RefValue.run_spec m ρ)

/-- From memories agreeing on the arguments both idealized programs end with the repeated attention output of those
    arguments. -/
theorem algebraic : Cert.algebraic_KernelIdeal_ReferenceIdeal := by
  intro m ρ m' ρ' _ hagree
  refine ⟨_, Cert.KernelIdeal.Val.run_spec m ρ, ?_⟩
  refine (θ_run Cert.ReferenceIdeal.defs _ _).mono (fun _ h c => ⟨(h c).1.trans ?_, (h c).2⟩)
    (Cert.ReferenceIdeal.RefValue.run_spec m' ρ')
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
